-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32x2048 : Shape := ⟨2, ![32, 2048]⟩
abbrev S32 : Shape := ⟨1, ![32]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn {F : FTy → Type} [FloatOps F] (main_arg0 : FVec F S32x2048x1024 .f32) (main_arg1 : IVec S32x2048 32) (main_arg2 : IVec S32 32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  main_v3
-- ==== Kernel.lean ====
abbrev S32x2048x1024 : Shape := ⟨3, ![32, 2048, 1024]⟩
abbrev S32x2048 : Shape := ⟨2, ![32, 2048]⟩
abbrev S32 : Shape := ⟨1, ![32]⟩
abbrev S32x1x2048 : Shape := ⟨3, ![32, 1, 2048]⟩
abbrev S32x32x1024 : Shape := ⟨3, ![32, 32, 1024]⟩
abbrev S32x1x32 : Shape := ⟨3, ![32, 1, 32]⟩
abbrev S1x2048x1024 : Shape := ⟨3, ![1, 2048, 1024]⟩
abbrev S1x1x2048 : Shape := ⟨3, ![1, 1, 2048]⟩
abbrev S1x32x1024 : Shape := ⟨3, ![1, 32, 1024]⟩
abbrev S1x1x32 : Shape := ⟨3, ![1, 1, 32]⟩
abbrev S2048x1024 : Shape := ⟨2, ![2048, 1024]⟩
abbrev S1x2048 : Shape := ⟨2, ![1, 2048]⟩
abbrev S32x1 : Shape := ⟨2, ![32, 1]⟩
abbrev S1x32 : Shape := ⟨2, ![1, 32]⟩
abbrev S32x1024 : Shape := ⟨2, ![32, 1024]⟩
abbrev S32x32 : Shape := ⟨2, ![32, 32]⟩
abbrev S_ : Shape := ⟨0, ![]⟩
abbrev S32x32x1 : Shape := ⟨3, ![32, 32, 1]⟩
abbrev S32x2048x1 : Shape := ⟨3, ![32, 2048, 1]⟩
abbrev S32x2048x32 : Shape := ⟨3, ![32, 2048, 32]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S32x31 : Shape := ⟨2, ![32, 31]⟩
abbrev S32x31x1024 : Shape := ⟨3, ![32, 31, 1024]⟩

abbrev nBuf : Space → Nat
  | .hbm => 190
  | .vmem => 8
  | .smem => 0
  | _ => 0

abbrev hbmTy0_0 (i : Nat) : BufTy := match i % 128 with
  | 0 => ⟨S32x2048x1024, .f32⟩
  | 1 => ⟨S32x2048, .i32⟩
  | 2 => ⟨S32, .i32⟩
  | 3 => ⟨S32x1x2048, .i32⟩
  | 4 => ⟨S32x32x1024, .f32⟩
  | 5 => ⟨S32x1x32, .f32⟩
  | 6 => ⟨S32x32, .f32⟩
  | 7 => ⟨S_, .f32⟩
  | 8 => ⟨S32x32, .f32⟩
  | 9 => ⟨S32x32, .f32⟩
  | 10 => ⟨S32x32x1, .f32⟩
  | 11 => ⟨S32x32x1024, .f32⟩
  | 12 => ⟨S32x32x1024, .f32⟩
  | 13 => ⟨S32, .i32⟩
  | 14 => ⟨S_, .i32⟩
  | 15 => ⟨S32, .i32⟩
  | 16 => ⟨S32, .i32⟩
  | 17 => ⟨S32x2048x1, .i32⟩
  | 18 => ⟨S1x1x32, .i32⟩
  | 19 => ⟨S32x2048x32, .i32⟩
  | 20 => ⟨S32x2048x32, .i32⟩
  | 21 => ⟨S32x2048x32, .i1⟩
  | 22 => ⟨S2048, .i32⟩
  | 23 => ⟨S1x2048x1, .i32⟩
  | 24 => ⟨S_, .i32⟩
  | 25 => ⟨S_, .i32⟩
  | 26 => ⟨S32x2048x32, .i32⟩
  | 27 => ⟨S32x2048x32, .i32⟩
  | 28 => ⟨S32x2048x32, .i32⟩
  | 29 => ⟨S_, .i32⟩
  | 30 => ⟨S32x32, .i32⟩
  | 31 => ⟨S32x32, .i32⟩
  | 32 => ⟨S32x32, .i32⟩
  | 33 => ⟨S32x32, .i32⟩
  | 34 => ⟨S1x32, .i32⟩
  | 35 => ⟨S32x32, .i32⟩
  | 36 => ⟨S_, .i32⟩
  | 37 => ⟨S32x32, .i32⟩
  | 38 => ⟨S32x32, .i1⟩
  | 39 => ⟨S_, .i32⟩
  | 40 => ⟨S32x32, .i32⟩
  | 41 => ⟨S32x32, .i32⟩
  | 42 => ⟨S32x32, .i32⟩
  | 43 => ⟨S32x32x1, .i32⟩
  | 44 => ⟨S1, .i32⟩
  | 45 => ⟨S_, .i32⟩
  | 46 => ⟨S32x32x1, .i32⟩
  | 47 => ⟨S32x32x1, .i1⟩
  | 48 => ⟨S1x1x1, .i32⟩
  | 49 => ⟨S32x32x1, .i32⟩
  | 50 => ⟨S32x32x1, .i1⟩
  | 51 => ⟨S32x32x1, .i1⟩
  | 52 => ⟨S_, .i1⟩
  | 53 => ⟨S32x32, .i1⟩
  | 54 => ⟨S32x32, .i32⟩
  | 55 => ⟨S_, .i32⟩
  | 56 => ⟨S32x32, .i32⟩
  | 57 => ⟨S32x32, .i32⟩
  | 58 => ⟨S_, .i32⟩
  | 59 => ⟨S32x32, .i32⟩
  | 60 => ⟨S32x32, .i1⟩
  | 61 => ⟨S_, .i32⟩
  | 62 => ⟨S32x32, .i32⟩
  | 63 => ⟨S32x32, .i32⟩
  | 64 => ⟨S32x32, .i32⟩
  | 65 => ⟨S32x32x1, .i32⟩
  | 66 => ⟨S1, .i32⟩
  | 67 => ⟨S_, .i32⟩
  | 68 => ⟨S32x32x1, .i32⟩
  | 69 => ⟨S32x32x1, .i1⟩
  | 70 => ⟨S1x1x1, .i32⟩
  | 71 => ⟨S32x32x1, .i32⟩
  | 72 => ⟨S32x32x1, .i1⟩
  | 73 => ⟨S32x32x1, .i1⟩
  | 74 => ⟨S_, .i1⟩
  | 75 => ⟨S32x32, .i1⟩
  | 76 => ⟨S32x32, .i32⟩
  | 77 => ⟨S_, .i32⟩
  | 78 => ⟨S32x32, .i32⟩
  | 79 => ⟨S32x32, .i32⟩
  | 80 => ⟨S_, .i32⟩
  | 81 => ⟨S32x32, .i32⟩
  | 82 => ⟨S32x32, .i1⟩
  | 83 => ⟨S32x32x1, .i32⟩
  | 84 => ⟨S_, .i32⟩
  | 85 => ⟨S32x32x1, .i32⟩
  | 86 => ⟨S32x32x1, .i1⟩
  | 87 => ⟨S_, .i32⟩
  | 88 => ⟨S32x32x1, .i32⟩
  | 89 => ⟨S32x32x1, .i32⟩
  | 90 => ⟨S32x32x1, .i32⟩
  | 91 => ⟨S1, .i32⟩
  | 92 => ⟨S_, .i32⟩
  | 93 => ⟨S32x32x1, .i32⟩
  | 94 => ⟨S32x32x1, .i1⟩
  | 95 => ⟨S1x1x1, .i32⟩
  | 96 => ⟨S32x32x1, .i32⟩
  | 97 => ⟨S32x32x1, .i1⟩
  | 98 => ⟨S32x32x1, .i1⟩
  | 99 => ⟨S_, .i1⟩
  | 100 => ⟨S32x32, .i1⟩
  | 101 => ⟨S32x32x1024, .f32⟩
  | 102 => ⟨S32x32x1024, .i1⟩
  | 103 => ⟨S_, .f32⟩
  | 104 => ⟨S32x32x1024, .f32⟩
  | 105 => ⟨S32x32x1024, .f32⟩
  | 106 => ⟨S32x32, .i32⟩
  | 107 => ⟨S_, .i32⟩
  | 108 => ⟨S32, .i32⟩
  | 109 => ⟨S32x31, .i1⟩
  | 110 => ⟨S32x31x1024, .f32⟩
  | 111 => ⟨S32x31x1024, .f32⟩
  | 112 => ⟨S32x31x1024, .f32⟩
  | 113 => ⟨S_, .f32⟩
  | 114 => ⟨S32x31x1024, .f32⟩
  | 115 => ⟨S32x31x1024, .f32⟩
  | 116 => ⟨S32x31x1024, .f32⟩
  | 117 => ⟨S_, .f32⟩
  | 118 => ⟨S32x31, .f32⟩
  | 119 => ⟨S_, .f32⟩
  | 120 => ⟨S32x31, .f32⟩
  | 121 => ⟨S32x31, .f32⟩
  | 122 => ⟨S32x31, .f32⟩
  | 123 => ⟨S_, .f32⟩
  | 124 => ⟨S32, .f32⟩
  | 125 => ⟨S32x31, .f32⟩
  | 126 => ⟨S_, .f32⟩
  | 127 => ⟨S32, .f32⟩
  | _ => ⟨S32x2048x1024, .f32⟩

abbrev hbmTy0_1 (i : Nat) : BufTy := match i % 128 with
  | 0 => ⟨S_, .f32⟩
  | 1 => ⟨S32, .f32⟩
  | 2 => ⟨S32, .f32⟩
  | 3 => ⟨S32, .f32⟩
  | 4 => ⟨S32x31, .i32⟩
  | 5 => ⟨S32x31, .i32⟩
  | 6 => ⟨S32x31, .i1⟩
  | 7 => ⟨S32x31, .i1⟩
  | 8 => ⟨S32x31, .f32⟩
  | 9 => ⟨S_, .f32⟩
  | 10 => ⟨S32, .f32⟩
  | 11 => ⟨S_, .f32⟩
  | 12 => ⟨S32x31, .f32⟩
  | 13 => ⟨S32x31, .f32⟩
  | 14 => ⟨S_, .f32⟩
  | 15 => ⟨S32x31, .f32⟩
  | 16 => ⟨S32x31, .f32⟩
  | 17 => ⟨S32x31, .f32⟩
  | 18 => ⟨S_, .f32⟩
  | 19 => ⟨S32, .f32⟩
  | 20 => ⟨S_, .f32⟩
  | 21 => ⟨S32, .f32⟩
  | 22 => ⟨S32, .f32⟩
  | 23 => ⟨S32, .f32⟩
  | 24 => ⟨S_, .i32⟩
  | 25 => ⟨S32, .i32⟩
  | 26 => ⟨S32, .i1⟩
  | 27 => ⟨S_, .i32⟩
  | 28 => ⟨S32, .i32⟩
  | 29 => ⟨S32, .i1⟩
  | 30 => ⟨S_, .i32⟩
  | 31 => ⟨S32, .i32⟩
  | 32 => ⟨S32, .i1⟩
  | 33 => ⟨S32, .i1⟩
  | 34 => ⟨S_, .f32⟩
  | 35 => ⟨S32, .f32⟩
  | 36 => ⟨S32, .i1⟩
  | 37 => ⟨S32, .i1⟩
  | 38 => ⟨S_, .f32⟩
  | 39 => ⟨S_, .f32⟩
  | 40 => ⟨S32, .f32⟩
  | 41 => ⟨S32, .f32⟩
  | 42 => ⟨S_, .f32⟩
  | 43 => ⟨S_, .f32⟩
  | 44 => ⟨S_, .f32⟩
  | 45 => ⟨S_, .f32⟩
  | 46 => ⟨S32, .f32⟩
  | 47 => ⟨S32, .f32⟩
  | 48 => ⟨S_, .f32⟩
  | 49 => ⟨S_, .f32⟩
  | 50 => ⟨S_, .f32⟩
  | 51 => ⟨S32, .i32⟩
  | 52 => ⟨S_, .i32⟩
  | 53 => ⟨S_, .i32⟩
  | 54 => ⟨S32, .i32⟩
  | 55 => ⟨S_, .i32⟩
  | 56 => ⟨S_, .i32⟩
  | 57 => ⟨S_, .i32⟩
  | 58 => ⟨S_, .f32⟩
  | 59 => ⟨S_, .f32⟩
  | 60 => ⟨S_, .f32⟩
  | 61 => ⟨S_, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x2048x1024, .f32⟩
  | .local _ .vmem, ⟨1, _⟩ => ⟨S1x2048x1024, .f32⟩
  | .local _ .vmem, ⟨2, _⟩ => ⟨S1x1x2048, .i32⟩
  | .local _ .vmem, ⟨3, _⟩ => ⟨S1x1x2048, .i32⟩
  | .local _ .vmem, ⟨4, _⟩ => ⟨S1x32x1024, .f32⟩
  | .local _ .vmem, ⟨5, _⟩ => ⟨S1x32x1024, .f32⟩
  | .local _ .vmem, ⟨6, _⟩ => ⟨S1x1x32, .f32⟩
  | .local _ .vmem, ⟨7, _⟩ => ⟨S1x1x32, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_call1_v0 : Ref sig .tc := ⟨.hbm, 31, rfl⟩
abbrev main_call1_v1_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_c_4 : Ref sig .tc := ⟨.hbm, 55, rfl⟩
abbrev main_call2_v14 : Ref sig .tc := ⟨.hbm, 56, rfl⟩
abbrev main_v23 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_c_4 : Ref sig .tc := ⟨.hbm, 77, rfl⟩
abbrev main_call3_v14 : Ref sig .tc := ⟨.hbm, 78, rfl⟩
abbrev main_v24 : Ref sig .tc := ⟨.hbm, 79, rfl⟩
abbrev main_c_2 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_call4_c : Ref sig .tc := ⟨.hbm, 84, rfl⟩
abbrev main_call4_v0 : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_c_1 : Ref sig .tc := ⟨.hbm, 91, rfl⟩
abbrev main_call4_c_2 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_v9 : Ref sig .tc := ⟨.hbm, 97, rfl⟩
abbrev main_call4_v10 : Ref sig .tc := ⟨.hbm, 98, rfl⟩
abbrev main_call4_c_3 : Ref sig .tc := ⟨.hbm, 99, rfl⟩
abbrev main_call4_v11 : Ref sig .tc := ⟨.hbm, 100, rfl⟩
abbrev main_call4_v12 : Ref sig .tc := ⟨.hbm, 101, rfl⟩
abbrev main_call4_v13 : Ref sig .tc := ⟨.hbm, 102, rfl⟩
abbrev main_call4_cst : Ref sig .tc := ⟨.hbm, 103, rfl⟩
abbrev main_call4_v14 : Ref sig .tc := ⟨.hbm, 104, rfl⟩
abbrev main_v28 : Ref sig .tc := ⟨.hbm, 105, rfl⟩
abbrev main_v29 : Ref sig .tc := ⟨.hbm, 106, rfl⟩
abbrev main_c_3 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_call5_cst : Ref sig .tc := ⟨.hbm, 113, rfl⟩
abbrev main_call5_v0 : Ref sig .tc := ⟨.hbm, 114, rfl⟩
abbrev main_v35 : Ref sig .tc := ⟨.hbm, 115, rfl⟩
abbrev main_v36 : Ref sig .tc := ⟨.hbm, 116, rfl⟩
abbrev main_cst_4 : Ref sig .tc := ⟨.hbm, 117, rfl⟩
abbrev main_v37 : Ref sig .tc := ⟨.hbm, 118, rfl⟩
abbrev main_cst_5 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_cst_6 : Ref sig .tc := ⟨.hbm, 123, rfl⟩
abbrev main_v41 : Ref sig .tc := ⟨.hbm, 124, rfl⟩
abbrev main_v42 : Ref sig .tc := ⟨.hbm, 125, rfl⟩
abbrev main_cst_7 : Ref sig .tc := ⟨.hbm, 126, rfl⟩
abbrev main_v43 : Ref sig .tc := ⟨.hbm, 127, rfl⟩
abbrev main_cst_8 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_cst_9 : Ref sig .tc := ⟨.hbm, 137, rfl⟩
abbrev main_v52 : Ref sig .tc := ⟨.hbm, 138, rfl⟩
abbrev main_cst_10 : Ref sig .tc := ⟨.hbm, 139, rfl⟩
abbrev main_v53 : Ref sig .tc := ⟨.hbm, 140, rfl⟩
abbrev main_v54 : Ref sig .tc := ⟨.hbm, 141, rfl⟩
abbrev main_call6_cst : Ref sig .tc := ⟨.hbm, 142, rfl⟩
abbrev main_call6_v0 : Ref sig .tc := ⟨.hbm, 143, rfl⟩
abbrev main_v55 : Ref sig .tc := ⟨.hbm, 144, rfl⟩
abbrev main_v56 : Ref sig .tc := ⟨.hbm, 145, rfl⟩
abbrev main_cst_11 : Ref sig .tc := ⟨.hbm, 146, rfl⟩
abbrev main_v57 : Ref sig .tc := ⟨.hbm, 147, rfl⟩
abbrev main_cst_12 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_c_13 : Ref sig .tc := ⟨.hbm, 152, rfl⟩
abbrev main_v61 : Ref sig .tc := ⟨.hbm, 153, rfl⟩
abbrev main_v62 : Ref sig .tc := ⟨.hbm, 154, rfl⟩
abbrev main_c_14 : Ref sig .tc := ⟨.hbm, 155, rfl⟩
abbrev main_v63 : Ref sig .tc := ⟨.hbm, 156, rfl⟩
abbrev main_v64 : Ref sig .tc := ⟨.hbm, 157, rfl⟩
abbrev main_c_15 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_cst_16 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_cst_17 : Ref sig .tc := ⟨.hbm, 166, rfl⟩
abbrev main_call7_v0 : Ref sig .tc := ⟨.hbm, 167, rfl⟩
abbrev main_call7_v1 : Ref sig .tc := ⟨.hbm, 168, rfl⟩
abbrev main_v71 : Ref sig .tc := ⟨.hbm, 169, rfl⟩
abbrev main_cst_18 : Ref sig .tc := ⟨.hbm, 170, rfl⟩
abbrev main_v72 : Ref sig .tc := ⟨.hbm, 171, rfl⟩
abbrev main_cst_19 : Ref sig .tc := ⟨.hbm, 172, rfl⟩
abbrev main_call8_v0 : Ref sig .tc := ⟨.hbm, 173, rfl⟩
abbrev main_call8_v1 : Ref sig .tc := ⟨.hbm, 174, rfl⟩
abbrev main_v73 : Ref sig .tc := ⟨.hbm, 175, rfl⟩
abbrev main_cst_20 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_c_21 : Ref sig .tc := ⟨.hbm, 180, rfl⟩
abbrev main_v77 : Ref sig .tc := ⟨.hbm, 181, rfl⟩
abbrev main_v78 : Ref sig .tc := ⟨.hbm, 182, rfl⟩
abbrev main_c_22 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_cst_23 : Ref sig .tc := ⟨.hbm, 187, rfl⟩
abbrev main_v82 : Ref sig .tc := ⟨.hbm, 188, rfl⟩
abbrev main_v83 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S32x2048_S32x1x2048_0_2 : S32x2048.BroadcastsInDim S32x1x2048 (![0, 2] : Fin 2 → Fin S32x1x2048.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S32x1_d0_w32 : S32x1.Iotas .tc 32 [0]
  broadcasts_S1x2048_S32x2048 : S1x2048.Broadcasts S32x2048
  broadcasts_S32x1_S32x2048 : S32x1.Broadcasts S32x2048
  natLt_1_32 : 1 < 32
  reduces_S32x2048_S32 : S32x2048.Reduces [1] S32
  shapeCasts_S32_S1x32 : S32.ShapeCasts S1x32
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  bitsLt_bf16_f32 : FTy.bits .bf16 < FTy.bits .f32
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  shapeCasts_S32x1x32_S32x32 : S32x1x32.ShapeCasts S32x32
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x32x1_S32x32x1024_0_1_2 : S32x32x1.BroadcastsInDim S32x32x1024 (![0, 1, 2] : Fin 3 → Fin S32x32x1024.rank)
  bcast_S_S32 : S_.BroadcastsInDim S32 (![] : Fin 0 → Fin S32.rank)
  bcast_S32x2048_S32x2048x1_0_1 : S32x2048.BroadcastsInDim S32x2048x1 (![0, 1] : Fin 2 → Fin S32x2048x1.rank)
  bcast_S32_S1x1x32_2 : S32.BroadcastsInDim S1x1x32 (![2] : Fin 1 → Fin S1x1x32.rank)
  bcast_S32x2048x1_S32x2048x32_0_1_2 : S32x2048x1.BroadcastsInDim S32x2048x32 (![0, 1, 2] : Fin 3 → Fin S32x2048x32.rank)
  bcast_S1x1x32_S32x2048x32_0_1_2 : S1x1x32.BroadcastsInDim S32x2048x32 (![0, 1, 2] : Fin 3 → Fin S32x2048x32.rank)
  bcast_S2048_S1x2048x1_1 : S2048.BroadcastsInDim S1x2048x1 (![1] : Fin 1 → Fin S1x2048x1.rank)
  bcast_S1x2048x1_S32x2048x32_0_1_2 : S1x2048x1.BroadcastsInDim S32x2048x32 (![0, 1, 2] : Fin 3 → Fin S32x2048x32.rank)
  bcast_S_S32x2048x32 : S_.BroadcastsInDim S32x2048x32 (![] : Fin 0 → Fin S32x2048x32.rank)
  reducesTo_S32x2048x32_S32x32_d1 : S32x2048x32.ReducesTo [1] S32x32
  h_S_ : 0 < S_.numel
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  shapeCasts_S32x32_S32x32x1 : S32x32.ShapeCasts S32x32x1
  bcast_S_S32x32x1 : S_.BroadcastsInDim S32x32x1 (![] : Fin 0 → Fin S32x32x1.rank)
  bcast_S1_S1x1x1_2 : S1.BroadcastsInDim S1x1x1 (![2] : Fin 1 → Fin S1x1x1.rank)
  bcast_S1x1x1_S32x32x1_0_1_2 : S1x1x1.BroadcastsInDim S32x32x1 (![0, 1, 2] : Fin 3 → Fin S32x32x1.rank)
  reducesTo_S32x32x1_S32x32_d2 : S32x32x1.ReducesTo [2] S32x32
  bcast_S32x32_S32x32x1024_0_1 : S32x32.BroadcastsInDim S32x32x1024 (![0, 1] : Fin 2 → Fin S32x32x1024.rank)
  bcast_S_S32x32x1024 : S_.BroadcastsInDim S32x32x1024 (![] : Fin 0 → Fin S32x32x1024.rank)
  reducesTo_S32x32_S32_d1 : S32x32.ReducesTo [1] S32
  slices_S32x32_S32x31_0_1 : S32x32.Slices ![0, 1] S32x31
  slices_S32x32x1024_S32x31x1024_0_0_0 : S32x32x1024.Slices ![0, 0, 0] S32x31x1024
  slices_S32x32x1024_S32x31x1024_0_1_0 : S32x32x1024.Slices ![0, 1, 0] S32x31x1024
  bcast_S_S32x31x1024 : S_.BroadcastsInDim S32x31x1024 (![] : Fin 0 → Fin S32x31x1024.rank)
  reducesTo_S32x31x1024_S32x31_d2 : S32x31x1024.ReducesTo [2] S32x31
  bcast_S_S32x31 : S_.BroadcastsInDim S32x31 (![] : Fin 0 → Fin S32x31.rank)
  reducesTo_S32x31_S32_d1 : S32x31.ReducesTo [1] S32
  slices_S32x32_S32x31_0_0 : S32x32.Slices ![0, 0] S32x31
  reducesTo_S32_S_d0 : S32.ReducesTo [0] S_
  dot_S32x2048_S2048x1024_S32x1024_1_0_0_1_n_n_wf : DotDims.WF S32x2048 S2048x1024 S32x1024 [1] [0] [0] [1] [] []
  gather_S32x32_S32x32x1_S32x32_n_1_0_0_1_2_11_wf : GatherDims.WF S32x32 S32x32x1 S32x32 [] [1] [0] [1] [0] 2 ![1, 1]
  gather_S32x32x1024_S32x32x1_S32x32x1024_2_1_0_0_1_2_111024_wf : GatherDims.WF S32x32x1024 S32x32x1 S32x32x1024 [2] [1] [0] [1] [0] 2 ![1, 1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S32x2048x1024.size a
  hwx0_0 : ∀ i : grid0.Coords, EltTy.bits .f32 = 32 ∨ (Rect.block (s := S32x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S32x1x2048.size a
  hwx0_1 : ∀ i : grid0.Coords, EltTy.bits .i32 = 32 ∨ (Rect.block (s := S32x1x2048) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1024.size a ≤ S32x32x1024.size a
  hwx0_2 : ∀ i : grid0.Coords, EltTy.bits .f32 = 32 ∨ (Rect.block (s := S32x32x1024) S1x32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32.size a ≤ S32x1x32.size a
  hwx0_3 : ∀ i : grid0.Coords, EltTy.bits .f32 = 32 ∨ (Rect.block (s := S32x1x32) S1x1x32.size (cc0_transform_3 i) (hinb0_3 i)).WholeWords (EltTy.packing .f32)

variable [Facts₀]

def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf
def comparator_i32_i32_d1 : BitVec 32 × BitVec 32 → BitVec 32 × BitVec 32 → BitVec 1 :=
  fun l r =>
    let v2 := IntOp.cmpi .slt l.1 r.1
    v2
def gather_S32x32_S32x32x1_S32x32_n_1_0_0_1_2_11 : GatherDims S32x32 S32x32x1 S32x32 where
  offsetDims := []
  collapsedSliceDims := [1]
  operandBatchingDims := [0]
  startIndicesBatchingDims := [0]
  startIndexMap := [1]
  indexVectorDim := 2
  sliceSizes := ![1, 1]
  wf := gather_S32x32_S32x32x1_S32x32_n_1_0_0_1_2_11_wf
def gather_S32x32x1024_S32x32x1_S32x32x1024_2_1_0_0_1_2_111024 : GatherDims S32x32x1024 S32x32x1 S32x32x1024 where
  offsetDims := [2]
  collapsedSliceDims := [1]
  operandBatchingDims := [0]
  startIndicesBatchingDims := [0]
  startIndexMap := [1]
  indexVectorDim := 2
  sliceSizes := ![1, 1, 1024]
  wf := gather_S32x32x1024_S32x32x1_S32x32x1024_2_1_0_0_1_2_111024_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x32x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S32x2048 : Shape := ⟨2, ![32, 2048]⟩
abbrev S32 : Shape := ⟨1, ![32]⟩
abbrev S_ : Shape := ⟨0, ![]⟩
abbrev S32x2048x1 : Shape := ⟨3, ![32, 2048, 1]⟩
abbrev S1x1x32 : Shape := ⟨3, ![1, 1, 32]⟩
abbrev S32x2048x32 : Shape := ⟨3, ![32, 2048, 32]⟩
abbrev S32x32 : Shape := ⟨2, ![32, 32]⟩
abbrev S32x32x1024 : Shape := ⟨3, ![32, 32, 1024]⟩
abbrev S32x32x1 : Shape := ⟨3, ![32, 32, 1]⟩
abbrev S2048 : Shape := ⟨1, ![2048]⟩
abbrev S1x2048x1 : Shape := ⟨3, ![1, 2048, 1]⟩
abbrev S1x32 : Shape := ⟨2, ![1, 32]⟩
abbrev S1 : Shape := ⟨1, ![1]⟩
abbrev S1x1x1 : Shape := ⟨3, ![1, 1, 1]⟩
abbrev S32x31 : Shape := ⟨2, ![32, 31]⟩
abbrev S32x31x1024 : Shape := ⟨3, ![32, 31, 1024]⟩

abbrev nBuf : Space → Nat
  | .hbm => 191
  | .vmem => 0
  | .smem => 0
  | _ => 0

abbrev hbmTy0_0 (i : Nat) : BufTy := match i % 128 with
  | 0 => ⟨S32x2048x1024, .f32⟩
  | 1 => ⟨S32x2048, .i32⟩
  | 2 => ⟨S32, .i32⟩
  | 3 => ⟨S32x2048x1024, .f32⟩
  | 4 => ⟨S32, .i32⟩
  | 5 => ⟨S_, .i32⟩
  | 6 => ⟨S32, .i32⟩
  | 7 => ⟨S32, .i32⟩
  | 8 => ⟨S32x2048x1, .i32⟩
  | 9 => ⟨S1x1x32, .i32⟩
  | 10 => ⟨S32x2048x32, .i32⟩
  | 11 => ⟨S32x2048x32, .i32⟩
  | 12 => ⟨S32x2048x32, .i1⟩
  | 13 => ⟨S32x2048x32, .f32⟩
  | 14 => ⟨S_, .f32⟩
  | 15 => ⟨S32x32, .f32⟩
  | 16 => ⟨S32x32x1024, .f32⟩
  | 17 => ⟨S_, .f32⟩
  | 18 => ⟨S32x32, .f32⟩
  | 19 => ⟨S32x32, .f32⟩
  | 20 => ⟨S32x32x1, .f32⟩
  | 21 => ⟨S32x32x1024, .f32⟩
  | 22 => ⟨S32x32x1024, .f32⟩
  | 23 => ⟨S2048, .i32⟩
  | 24 => ⟨S1x2048x1, .i32⟩
  | 25 => ⟨S_, .i32⟩
  | 26 => ⟨S_, .i32⟩
  | 27 => ⟨S32x2048x32, .i32⟩
  | 28 => ⟨S32x2048x32, .i32⟩
  | 29 => ⟨S32x2048x32, .i32⟩
  | 30 => ⟨S_, .i32⟩
  | 31 => ⟨S32x32, .i32⟩
  | 32 => ⟨S32x32, .i32⟩
  | 33 => ⟨S32x32, .i32⟩
  | 34 => ⟨S32x32, .i32⟩
  | 35 => ⟨S1x32, .i32⟩
  | 36 => ⟨S32x32, .i32⟩
  | 37 => ⟨S_, .i32⟩
  | 38 => ⟨S32x32, .i32⟩
  | 39 => ⟨S32x32, .i1⟩
  | 40 => ⟨S_, .i32⟩
  | 41 => ⟨S32x32, .i32⟩
  | 42 => ⟨S32x32, .i32⟩
  | 43 => ⟨S32x32, .i32⟩
  | 44 => ⟨S32x32x1, .i32⟩
  | 45 => ⟨S1, .i32⟩
  | 46 => ⟨S_, .i32⟩
  | 47 => ⟨S32x32x1, .i32⟩
  | 48 => ⟨S32x32x1, .i1⟩
  | 49 => ⟨S1x1x1, .i32⟩
  | 50 => ⟨S32x32x1, .i32⟩
  | 51 => ⟨S32x32x1, .i1⟩
  | 52 => ⟨S32x32x1, .i1⟩
  | 53 => ⟨S_, .i1⟩
  | 54 => ⟨S32x32, .i1⟩
  | 55 => ⟨S32x32, .i32⟩
  | 56 => ⟨S_, .i32⟩
  | 57 => ⟨S32x32, .i32⟩
  | 58 => ⟨S32x32, .i32⟩
  | 59 => ⟨S_, .i32⟩
  | 60 => ⟨S32x32, .i32⟩
  | 61 => ⟨S32x32, .i1⟩
  | 62 => ⟨S_, .i32⟩
  | 63 => ⟨S32x32, .i32⟩
  | 64 => ⟨S32x32, .i32⟩
  | 65 => ⟨S32x32, .i32⟩
  | 66 => ⟨S32x32x1, .i32⟩
  | 67 => ⟨S1, .i32⟩
  | 68 => ⟨S_, .i32⟩
  | 69 => ⟨S32x32x1, .i32⟩
  | 70 => ⟨S32x32x1, .i1⟩
  | 71 => ⟨S1x1x1, .i32⟩
  | 72 => ⟨S32x32x1, .i32⟩
  | 73 => ⟨S32x32x1, .i1⟩
  | 74 => ⟨S32x32x1, .i1⟩
  | 75 => ⟨S_, .i1⟩
  | 76 => ⟨S32x32, .i1⟩
  | 77 => ⟨S32x32, .i32⟩
  | 78 => ⟨S_, .i32⟩
  | 79 => ⟨S32x32, .i32⟩
  | 80 => ⟨S32x32, .i32⟩
  | 81 => ⟨S_, .i32⟩
  | 82 => ⟨S32x32, .i32⟩
  | 83 => ⟨S32x32, .i1⟩
  | 84 => ⟨S32x32x1, .i32⟩
  | 85 => ⟨S_, .i32⟩
  | 86 => ⟨S32x32x1, .i32⟩
  | 87 => ⟨S32x32x1, .i1⟩
  | 88 => ⟨S_, .i32⟩
  | 89 => ⟨S32x32x1, .i32⟩
  | 90 => ⟨S32x32x1, .i32⟩
  | 91 => ⟨S32x32x1, .i32⟩
  | 92 => ⟨S1, .i32⟩
  | 93 => ⟨S_, .i32⟩
  | 94 => ⟨S32x32x1, .i32⟩
  | 95 => ⟨S32x32x1, .i1⟩
  | 96 => ⟨S1x1x1, .i32⟩
  | 97 => ⟨S32x32x1, .i32⟩
  | 98 => ⟨S32x32x1, .i1⟩
  | 99 => ⟨S32x32x1, .i1⟩
  | 100 => ⟨S_, .i1⟩
  | 101 => ⟨S32x32, .i1⟩
  | 102 => ⟨S32x32x1024, .f32⟩
  | 103 => ⟨S32x32x1024, .i1⟩
  | 104 => ⟨S_, .f32⟩
  | 105 => ⟨S32x32x1024, .f32⟩
  | 106 => ⟨S32x32x1024, .f32⟩
  | 107 => ⟨S32x32, .i32⟩
  | 108 => ⟨S_, .i32⟩
  | 109 => ⟨S32, .i32⟩
  | 110 => ⟨S32x31, .i1⟩
  | 111 => ⟨S32x31x1024, .f32⟩
  | 112 => ⟨S32x31x1024, .f32⟩
  | 113 => ⟨S32x31x1024, .f32⟩
  | 114 => ⟨S_, .f32⟩
  | 115 => ⟨S32x31x1024, .f32⟩
  | 116 => ⟨S32x31x1024, .f32⟩
  | 117 => ⟨S32x31x1024, .f32⟩
  | 118 => ⟨S_, .f32⟩
  | 119 => ⟨S32x31, .f32⟩
  | 120 => ⟨S_, .f32⟩
  | 121 => ⟨S32x31, .f32⟩
  | 122 => ⟨S32x31, .f32⟩
  | 123 => ⟨S32x31, .f32⟩
  | 124 => ⟨S_, .f32⟩
  | 125 => ⟨S32, .f32⟩
  | 126 => ⟨S32x31, .f32⟩
  | 127 => ⟨S_, .f32⟩
  | _ => ⟨S32x2048x1024, .f32⟩

abbrev hbmTy0_1 (i : Nat) : BufTy := match i % 128 with
  | 0 => ⟨S32, .f32⟩
  | 1 => ⟨S_, .f32⟩
  | 2 => ⟨S32, .f32⟩
  | 3 => ⟨S32, .f32⟩
  | 4 => ⟨S32, .f32⟩
  | 5 => ⟨S32x31, .i32⟩
  | 6 => ⟨S32x31, .i32⟩
  | 7 => ⟨S32x31, .i1⟩
  | 8 => ⟨S32x31, .i1⟩
  | 9 => ⟨S32x31, .f32⟩
  | 10 => ⟨S_, .f32⟩
  | 11 => ⟨S32, .f32⟩
  | 12 => ⟨S_, .f32⟩
  | 13 => ⟨S32x31, .f32⟩
  | 14 => ⟨S32x31, .f32⟩
  | 15 => ⟨S_, .f32⟩
  | 16 => ⟨S32x31, .f32⟩
  | 17 => ⟨S32x31, .f32⟩
  | 18 => ⟨S32x31, .f32⟩
  | 19 => ⟨S_, .f32⟩
  | 20 => ⟨S32, .f32⟩
  | 21 => ⟨S_, .f32⟩
  | 22 => ⟨S32, .f32⟩
  | 23 => ⟨S32, .f32⟩
  | 24 => ⟨S32, .f32⟩
  | 25 => ⟨S_, .i32⟩
  | 26 => ⟨S32, .i32⟩
  | 27 => ⟨S32, .i1⟩
  | 28 => ⟨S_, .i32⟩
  | 29 => ⟨S32, .i32⟩
  | 30 => ⟨S32, .i1⟩
  | 31 => ⟨S_, .i32⟩
  | 32 => ⟨S32, .i32⟩
  | 33 => ⟨S32, .i1⟩
  | 34 => ⟨S32, .i1⟩
  | 35 => ⟨S_, .f32⟩
  | 36 => ⟨S32, .f32⟩
  | 37 => ⟨S32, .i1⟩
  | 38 => ⟨S32, .i1⟩
  | 39 => ⟨S_, .f32⟩
  | 40 => ⟨S_, .f32⟩
  | 41 => ⟨S32, .f32⟩
  | 42 => ⟨S32, .f32⟩
  | 43 => ⟨S_, .f32⟩
  | 44 => ⟨S_, .f32⟩
  | 45 => ⟨S_, .f32⟩
  | 46 => ⟨S_, .f32⟩
  | 47 => ⟨S32, .f32⟩
  | 48 => ⟨S32, .f32⟩
  | 49 => ⟨S_, .f32⟩
  | 50 => ⟨S_, .f32⟩
  | 51 => ⟨S_, .f32⟩
  | 52 => ⟨S32, .i32⟩
  | 53 => ⟨S_, .i32⟩
  | 54 => ⟨S_, .i32⟩
  | 55 => ⟨S32, .i32⟩
  | 56 => ⟨S_, .i32⟩
  | 57 => ⟨S_, .i32⟩
  | 58 => ⟨S_, .i32⟩
  | 59 => ⟨S_, .f32⟩
  | 60 => ⟨S_, .f32⟩
  | 61 => ⟨S_, .f32⟩
  | 62 => ⟨S_, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_call1_v0 : Ref sig .tc := ⟨.hbm, 32, rfl⟩
abbrev main_call1_v1_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_c_4 : Ref sig .tc := ⟨.hbm, 56, rfl⟩
abbrev main_call2_v14 : Ref sig .tc := ⟨.hbm, 57, rfl⟩
abbrev main_v24 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_c_4 : Ref sig .tc := ⟨.hbm, 78, rfl⟩
abbrev main_call3_v14 : Ref sig .tc := ⟨.hbm, 79, rfl⟩
abbrev main_v25 : Ref sig .tc := ⟨.hbm, 80, rfl⟩
abbrev main_c_3 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_call4_c : Ref sig .tc := ⟨.hbm, 85, rfl⟩
abbrev main_call4_v0 : Ref sig .tc := ⟨.hbm, 86, rfl⟩
abbrev main_call4_v1 : Ref sig .tc := ⟨.hbm, 87, rfl⟩
abbrev main_call4_c_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_c_1 : Ref sig .tc := ⟨.hbm, 92, rfl⟩
abbrev main_call4_c_2 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_c_3 : Ref sig .tc := ⟨.hbm, 100, rfl⟩
abbrev main_call4_v11 : Ref sig .tc := ⟨.hbm, 101, rfl⟩
abbrev main_call4_v12 : Ref sig .tc := ⟨.hbm, 102, rfl⟩
abbrev main_call4_v13 : Ref sig .tc := ⟨.hbm, 103, rfl⟩
abbrev main_call4_cst : Ref sig .tc := ⟨.hbm, 104, rfl⟩
abbrev main_call4_v14 : Ref sig .tc := ⟨.hbm, 105, rfl⟩
abbrev main_v29 : Ref sig .tc := ⟨.hbm, 106, rfl⟩
abbrev main_v30 : Ref sig .tc := ⟨.hbm, 107, rfl⟩
abbrev main_c_4 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_call5_cst : Ref sig .tc := ⟨.hbm, 114, rfl⟩
abbrev main_call5_v0 : Ref sig .tc := ⟨.hbm, 115, rfl⟩
abbrev main_v36 : Ref sig .tc := ⟨.hbm, 116, rfl⟩
abbrev main_v37 : Ref sig .tc := ⟨.hbm, 117, rfl⟩
abbrev main_cst_5 : Ref sig .tc := ⟨.hbm, 118, rfl⟩
abbrev main_v38 : Ref sig .tc := ⟨.hbm, 119, rfl⟩
abbrev main_cst_6 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_cst_7 : Ref sig .tc := ⟨.hbm, 124, rfl⟩
abbrev main_v42 : Ref sig .tc := ⟨.hbm, 125, rfl⟩
abbrev main_v43 : Ref sig .tc := ⟨.hbm, 126, rfl⟩
abbrev main_cst_8 : Ref sig .tc := ⟨.hbm, 127, rfl⟩
abbrev main_v44 : Ref sig .tc := ⟨.hbm, 128, rfl⟩
abbrev main_cst_9 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_cst_10 : Ref sig .tc := ⟨.hbm, 138, rfl⟩
abbrev main_v53 : Ref sig .tc := ⟨.hbm, 139, rfl⟩
abbrev main_cst_11 : Ref sig .tc := ⟨.hbm, 140, rfl⟩
abbrev main_v54 : Ref sig .tc := ⟨.hbm, 141, rfl⟩
abbrev main_v55 : Ref sig .tc := ⟨.hbm, 142, rfl⟩
abbrev main_call6_cst : Ref sig .tc := ⟨.hbm, 143, rfl⟩
abbrev main_call6_v0 : Ref sig .tc := ⟨.hbm, 144, rfl⟩
abbrev main_v56 : Ref sig .tc := ⟨.hbm, 145, rfl⟩
abbrev main_v57 : Ref sig .tc := ⟨.hbm, 146, rfl⟩
abbrev main_cst_12 : Ref sig .tc := ⟨.hbm, 147, rfl⟩
abbrev main_v58 : Ref sig .tc := ⟨.hbm, 148, rfl⟩
abbrev main_cst_13 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_c_14 : Ref sig .tc := ⟨.hbm, 153, rfl⟩
abbrev main_v62 : Ref sig .tc := ⟨.hbm, 154, rfl⟩
abbrev main_v63 : Ref sig .tc := ⟨.hbm, 155, rfl⟩
abbrev main_c_15 : Ref sig .tc := ⟨.hbm, 156, rfl⟩
abbrev main_v64 : Ref sig .tc := ⟨.hbm, 157, rfl⟩
abbrev main_v65 : Ref sig .tc := ⟨.hbm, 158, rfl⟩
abbrev main_c_16 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_cst_17 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_cst_18 : Ref sig .tc := ⟨.hbm, 167, rfl⟩
abbrev main_call7_v0 : Ref sig .tc := ⟨.hbm, 168, rfl⟩
abbrev main_call7_v1 : Ref sig .tc := ⟨.hbm, 169, rfl⟩
abbrev main_v72 : Ref sig .tc := ⟨.hbm, 170, rfl⟩
abbrev main_cst_19 : Ref sig .tc := ⟨.hbm, 171, rfl⟩
abbrev main_v73 : Ref sig .tc := ⟨.hbm, 172, rfl⟩
abbrev main_cst_20 : Ref sig .tc := ⟨.hbm, 173, rfl⟩
abbrev main_call8_v0 : Ref sig .tc := ⟨.hbm, 174, rfl⟩
abbrev main_call8_v1 : Ref sig .tc := ⟨.hbm, 175, rfl⟩
abbrev main_v74 : Ref sig .tc := ⟨.hbm, 176, rfl⟩
abbrev main_cst_21 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_c_22 : Ref sig .tc := ⟨.hbm, 181, rfl⟩
abbrev main_v78 : Ref sig .tc := ⟨.hbm, 182, rfl⟩
abbrev main_v79 : Ref sig .tc := ⟨.hbm, 183, rfl⟩
abbrev main_c_23 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_cst_24 : Ref sig .tc := ⟨.hbm, 188, rfl⟩
abbrev main_v83 : Ref sig .tc := ⟨.hbm, 189, rfl⟩
abbrev main_v84 : Ref sig .tc := ⟨.hbm, 190, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32x2048_S32x2048x1_0_1 : S32x2048.BroadcastsInDim S32x2048x1 (![0, 1] : Fin 2 → Fin S32x2048x1.rank)
  bcast_S32_S1x1x32_2 : S32.BroadcastsInDim S1x1x32 (![2] : Fin 1 → Fin S1x1x32.rank)
  bcast_S32x2048x1_S32x2048x32_0_1_2 : S32x2048x1.BroadcastsInDim S32x2048x32 (![0, 1, 2] : Fin 3 → Fin S32x2048x32.rank)
  bcast_S1x1x32_S32x2048x32_0_1_2 : S1x1x32.BroadcastsInDim S32x2048x32 (![0, 1, 2] : Fin 3 → Fin S32x2048x32.rank)
  reducesTo_S32x2048x32_S32x32_d1 : S32x2048x32.ReducesTo [1] S32x32
  h_S_ : 0 < S_.numel
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x32x1_S32x32x1024_0_1_2 : S32x32x1.BroadcastsInDim S32x32x1024 (![0, 1, 2] : Fin 3 → Fin S32x32x1024.rank)
  bcast_S2048_S1x2048x1_1 : S2048.BroadcastsInDim S1x2048x1 (![1] : Fin 1 → Fin S1x2048x1.rank)
  bcast_S1x2048x1_S32x2048x32_0_1_2 : S1x2048x1.BroadcastsInDim S32x2048x32 (![0, 1, 2] : Fin 3 → Fin S32x2048x32.rank)
  bcast_S_S32x2048x32 : S_.BroadcastsInDim S32x2048x32 (![] : Fin 0 → Fin S32x2048x32.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  shapeCasts_S32x32_S32x32x1 : S32x32.ShapeCasts S32x32x1
  bcast_S_S32x32x1 : S_.BroadcastsInDim S32x32x1 (![] : Fin 0 → Fin S32x32x1.rank)
  bcast_S1_S1x1x1_2 : S1.BroadcastsInDim S1x1x1 (![2] : Fin 1 → Fin S1x1x1.rank)
  bcast_S1x1x1_S32x32x1_0_1_2 : S1x1x1.BroadcastsInDim S32x32x1 (![0, 1, 2] : Fin 3 → Fin S32x32x1.rank)
  reducesTo_S32x32x1_S32x32_d2 : S32x32x1.ReducesTo [2] S32x32
  bcast_S32x32_S32x32x1024_0_1 : S32x32.BroadcastsInDim S32x32x1024 (![0, 1] : Fin 2 → Fin S32x32x1024.rank)
  bcast_S_S32x32x1024 : S_.BroadcastsInDim S32x32x1024 (![] : Fin 0 → Fin S32x32x1024.rank)
  natLt_1_32 : 1 < 32
  reducesTo_S32x32_S32_d1 : S32x32.ReducesTo [1] S32
  slices_S32x32_S32x31_0_1 : S32x32.Slices ![0, 1] S32x31
  slices_S32x32x1024_S32x31x1024_0_0_0 : S32x32x1024.Slices ![0, 0, 0] S32x31x1024
  slices_S32x32x1024_S32x31x1024_0_1_0 : S32x32x1024.Slices ![0, 1, 0] S32x31x1024
  bcast_S_S32x31x1024 : S_.BroadcastsInDim S32x31x1024 (![] : Fin 0 → Fin S32x31x1024.rank)
  reducesTo_S32x31x1024_S32x31_d2 : S32x31x1024.ReducesTo [2] S32x31
  bcast_S_S32x31 : S_.BroadcastsInDim S32x31 (![] : Fin 0 → Fin S32x31.rank)
  reducesTo_S32x31_S32_d1 : S32x31.ReducesTo [1] S32
  slices_S32x32_S32x31_0_0 : S32x32.Slices ![0, 0] S32x31
  reducesTo_S32_S_d0 : S32.ReducesTo [0] S_
  dot_S32x2048x32_S32x2048x1024_S32x32x1024_1_1_2_2_0_0_wf : DotDims.WF S32x2048x32 S32x2048x1024 S32x32x1024 [1] [1] [2] [2] [0] [0]
  gather_S32x32_S32x32x1_S32x32_n_1_0_0_1_2_11_wf : GatherDims.WF S32x32 S32x32x1 S32x32 [] [1] [0] [1] [0] 2 ![1, 1]
  gather_S32x32x1024_S32x32x1_S32x32x1024_2_1_0_0_1_2_111024_wf : GatherDims.WF S32x32x1024 S32x32x1 S32x32x1024 [2] [1] [0] [1] [0] 2 ![1, 1, 1024]

variable [Facts₀]

def dot_S32x2048x32_S32x2048x1024_S32x32x1024_1_1_2_2_0_0 : DotDims S32x2048x32 S32x2048x1024 S32x32x1024 where
  lhsContracting := [1]
  rhsContracting := [1]
  lhsNonContracting := [2]
  rhsNonContracting := [2]
  lhsBatch := [0]
  rhsBatch := [0]
  wf := dot_S32x2048x32_S32x2048x1024_S32x32x1024_1_1_2_2_0_0_wf
def comparator_i32_i32_d1 : BitVec 32 × BitVec 32 → BitVec 32 × BitVec 32 → BitVec 1 :=
  fun l r =>
    let v2 := IntOp.cmpi .slt l.1 r.1
    v2
def gather_S32x32_S32x32x1_S32x32_n_1_0_0_1_2_11 : GatherDims S32x32 S32x32x1 S32x32 where
  offsetDims := []
  collapsedSliceDims := [1]
  operandBatchingDims := [0]
  startIndicesBatchingDims := [0]
  startIndexMap := [1]
  indexVectorDim := 2
  sliceSizes := ![1, 1]
  wf := gather_S32x32_S32x32x1_S32x32_n_1_0_0_1_2_11_wf
def gather_S32x32x1024_S32x32x1_S32x32x1024_2_1_0_0_1_2_111024 : GatherDims S32x32x1024 S32x32x1 S32x32x1024 where
  offsetDims := [2]
  collapsedSliceDims := [1]
  operandBatchingDims := [0]
  startIndicesBatchingDims := [0]
  startIndexMap := [1]
  indexVectorDim := 2
  sliceSizes := ![1, 1, 1024]
  wf := gather_S32x32x1024_S32x32x1_S32x32x1024_2_1_0_0_1_2_111024_wf

class Facts : Prop extends Facts₀ where

variable [Facts]
-- ==== Proof.BitsHost.lean ====
/-
  The host side of the kernel program's run, at any float instance.

  @main is one host line (the step ids, [32, 2048], spread to [32, 1, 2048]), then one pipelined region over the 32
  samples — window 0 is sample b's [2048, 1024] block of activations, window 1 its row of 2048 step ids, window 2 its
  [32, 1024] block of per-step sums, window 3 its row of 32 per-step counts —, then 184 host lines in eighteen stretches.
  None of the later lines writes a windowed array or an argument, and none allocates. This module names what the
  region finds in each buffer (`V`), states @main as "host line, region, later lines", states what the later lines keep,
  reads each window's block at a point off its array, and reads the three argument arrays off a run of the region
  followed by the later lines: the first argument is a windowed input, so it ends at its entry contents; the other two
  are read by no window and written by no line.
-/
import proofs.«113599_j8375186227913_1_alg».proof.Proof.Gen.Kernel.Launch
import proofs.«113599_j8375186227913_1_alg».proof.Proof.Gen.Kernel.Points
import Idealize.ShloMosaic.Lib.Pipeline.FrameBody
import Idealize.ShloMosaic.Lib.Pipeline.FrameSuffix

set_option maxRecDepth 16384

noncomputable section

namespace Cert.Kernel.Host

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-- The eighteen stretches of host lines after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17]

/-- The buffers no later line may write: the three arguments and the four windowed arrays. -/
abbrev keptRefs : List (Ref sig .tc) := [main_arg0, main_arg1, main_arg2, main_v0, main_v1_0, main_v1_1]

/-- A property of every operation of every stretch, read at a member. -/
theorem mem₂ {α : Type} {p : α → Prop} {l : List (List α)} (h : l.Forall fun ops => ops.Forall p) :
    ∀ ops ∈ l, ∀ op ∈ ops, p op := fun ops hops op hop =>
  List.forall_iff_forall_mem.mp (List.forall_iff_forall_mem.mp h ops hops) op hop

/-- Every later line touches TensorCore buffers only. -/
theorem tail_sub : (tailOps : List (List (HloOp τ sig (Elt F)))).Forall fun ops => ops.Forall fun op => op.bufs ⊆ StableHlo.tcRefs τ sig :=
  And.intro hostOps1_sub <| And.intro hostOps1_1_sub <| And.intro hostOps1_2_sub <| And.intro hostOps1_3_sub <| And.intro hostOps1_4_sub <| And.intro hostOps1_5_sub <| And.intro hostOps1_6_sub <| And.intro hostOps1_7_sub <| And.intro hostOps1_8_sub <| And.intro hostOps1_9_sub <| And.intro hostOps1_10_sub <| And.intro hostOps1_11_sub <| And.intro hostOps1_12_sub <| And.intro hostOps1_13_sub <| And.intro hostOps1_14_sub <| And.intro hostOps1_15_sub <| And.intro hostOps1_16_sub <| hostOps1_17_sub

/-- No later line allocates. -/
theorem tail_fresh : (tailOps : List (List (HloOp τ sig (Elt F)))).Forall fun ops => ops.Forall fun op => op.fresh = ∅ := by
  simp only [List.Forall]; repeat' constructor

/-- Every later line writes only its own result buffer, which is none of the kept ones. -/
theorem tail_keeps : (tailOps : List (List (HloOp τ sig (Elt F)))).Forall fun ops => ops.Forall fun op =>
    ∀ b ∈ keptRefs, Proc.devRef (τ := τ) .tc b ∉ op.writes := by
  simp only [List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact fun b hb => StableHlo.devRef_ne_of_ne (by revert b; decide)

/-- Each windowed array is a kept buffer. -/
theorem arr_kept : ∀ w, Pipeline.arrRef spec0 w ∈ keptRefs := by decide

variable (m : (ℓ : Loc nD τ sig) → Buf (Elt F) ℓ) (ρ : Dev nD → PrngReg)

/-! ## @main around the region -/

/-- Core `c`'s buffer contents when the region is entered: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- @main is the host line, the region, and the later lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; repeat' constructor) main_chain

/-- The later lines touch the windowed arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (mem₂ tail_sub ops hops op hop)

/-- They allocate nothing. -/
theorem sfx_fresh : ∀ ops ∈ (tailOps : List (List (HloOp τ sig (Elt F)))), ∀ op ∈ ops, op.fresh = ∅ :=
  mem₂ tail_fresh

/-- They write no windowed array. -/
theorem sfx_keeps : ∀ ops ∈ (tailOps : List (List (HloOp τ sig (Elt F)))), ∀ op ∈ ops,
    ∀ w, Proc.devRef .tc (Pipeline.arrRef spec0 w) ∉ op.writes :=
  fun ops hops op hop w => mem₂ tail_keeps ops hops op hop _ (arr_kept w)

/-- The host line before the region writes the spread step ids only: the region finds any other buffer as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.unary_writes, Finset.mem_singleton]
    exact StableHlo.devRef_ne_of_ne hb))

/-- A kept buffer that is no windowed array and not the spread step ids ends, after the later lines, as launched. -/
theorem W_of_kept (dats : (p : Fin 1) → (c : Dev nD) → Dat τ (Elt F) Unit ℕ (UR sig nD τ) ℕ (cfgs p) c) (c : Dev nD)
    (b : Ref sig .tc) (hb : b ∈ keptRefs) (hw : ∀ w, Pipeline.arrRef spec0 w ≠ b) (h0 : b ≠ main_v0) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact mem₂ tail_keeps ops hops op hop' b hb),
    Pipeline.withArrays_of_ne _ c (V0 m c) _ b hw]
  exact V_of_ne m c b h0

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' window holds its block at every point, fetched there or not, for any proof data over the
    region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the step ids' window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run of the region followed by the later lines, for any proof data over the region-entry arrays: the three
    argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans ((((dats 0 c).arrAt_in 0 rfl _).trans (hA c 0)).trans (V_of_ne m c main_arg0 (by decide))),
     ((h c).2 main_arg1 (Pipeline.mem_restRefs_of main_arg1 (by decide) (by decide))).trans
       (W_of_kept m dats c main_arg1 (by decide) (by decide) (by decide)),
     ((h c).2 main_arg2 (Pipeline.mem_restRefs_of main_arg2 (by decide) (by decide))).trans
       (W_of_kept m dats c main_arg2 (by decide) (by decide) (by decide))⟩) h

end Cert.Kernel.Host

end
-- ==== Proof.BitsBody.lean ====
/-
  The kernel body on its four staging buffers, at any float instance.

  The body reads sample b's [1, 2048, 1024] block of activations and its [1, 1, 2048] row of step ids, and writes two
  buffers whole: the [1, 1, 32] row of counts (for each step s = 1 … 32, how many of the 2048 positions carry step id s,
  summed as floats) and the [1, 32, 1024] block of sums (the 0/1 step mask [32, 2048] times the absolute activations
  [2048, 1024]). Before each store the body also loads the output buffer it is about to overwrite; the loaded value is
  never used, so what the buffers held before does not matter. Each store covers its buffer, so after the body each
  output buffer holds exactly its stored value, a function of the two input blocks alone.
-/
import proofs.«113599_j8375186227913_1_alg».proof.Proof.Gen.Kernel.Skeleton
import proofs.«113599_j8375186227913_1_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole buffer -/

abbrev rAct : Rect S1x2048x1024 := Rect.unit (s := S1x2048x1024) ![0, 0, 0] S1x2048x1024.size inb_S1x2048x1024_S1x2048x1024_0_0_0
abbrev rIds : Rect S1x1x2048 := Rect.unit (s := S1x1x2048) ![0, 0, 0] S1x1x2048.size inb_S1x1x2048_S1x1x2048_0_0_0
abbrev rSums : Rect S1x32x1024 := Rect.unit (s := S1x32x1024) ![0, 0, 0] S1x32x1024.size inb_S1x32x1024_S1x32x1024_0_0_0
abbrev rCnt : Rect S1x1x32 := Rect.unit (s := S1x1x32) ![0, 0, 0] S1x1x32.size inb_S1x1x32_S1x1x32_0_0_0

/-! ## What the body leaves in each output buffer -/

/-- The sums' buffer after the body: its one store, of the mask-times-activations product of the two input blocks. -/
def outSums (x0 : Vec F S1x2048x1024 .f32) (x1 : Vec F S1x1x2048 .i32) : Vec F S1x32x1024 .f32 :=
  View.canon [⟨rSums, k0_pay3 (View.ld x0 rAct) (View.ld x1 rIds)⟩]

/-- The counts' buffer after the body: its one store, of the row sums of the step mask of the step ids' block. -/
def outCnt (x1 : Vec F S1x1x2048 .i32) : Vec F S1x1x32 .f32 :=
  View.canon [⟨rCnt, k0_pay2 (View.ld x1 rIds)⟩]

/-- The store into the sums' buffer covers it. -/
theorem coverSums (p0 : Vec F S1x32x1024 .f32) (y : S1x32x1024.Idx) :
    ∃ pc ∈ ([⟨rSums, p0⟩] : List (View.Piece (Elt F) S1x32x1024 .f32)), y ∈ pc.1.set :=
  View.cover_of_tiled [⟨rSums, p0⟩] S1x32x1024.size (by rfl) y

/-- The store into the counts' buffer covers it. -/
theorem coverCnt (p0 : Vec F S1x1x32 .f32) (y : S1x1x32.Idx) :
    ∃ pc ∈ ([⟨rCnt, p0⟩] : List (View.Piece (Elt F) S1x1x32 .f32)), y ∈ pc.1.set :=
  View.cover_of_tiled [⟨rCnt, p0⟩] S1x1x32.size (by rfl) y

/-! ## The body's triple -/

set_option maxHeartbeats 1000000 in
/-- The body on whole staging buffers, the inputs' at contents `x0`, `x1` and the outputs' at anything, runs to the
    continuation with the inputs' as they were and the outputs' at `outSums x0 x1` and `outCnt x1`. -/
theorem sound_kernel (c : Dev nD) (E : Set ℕ) (i : grid0.Coords)
    (arg1 : Memref sig .tc .vmem S1x2048x1024 .f32) (harg1 : arg1.IsWhole) (arg2 : Memref sig .tc .vmem S1x1x2048 .i32) (harg2 : arg2.IsWhole)
    (arg3 : Memref sig .tc .vmem S1x32x1024 .f32) (harg3 : arg3.IsWhole) (arg4 : Memref sig .tc .vmem S1x1x32 .f32) (harg4 : arg4.IsWhole)
    (x0 : Vec F S1x2048x1024 .f32) (x1 : Vec F S1x1x2048 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outSums x0 x1) ∗ owns (c : Thread nD τ) arg4 fullShare (outCnt x1)) -∗ K ⟨⟩))
      ⊢ wp frame (wpE (defs₀ (F := F)) Variants.none c none) E (cc0__segment_sum_kernel i arg1 harg1 arg2 harg2 arg3 harg3 arg4 harg4) K := by
  simp only [cc0__segment_sum_kernel_eq_skeleton]; unfold cc0__segment_sum_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverSums _)
  iexists _; isplitr
  swap; · iexact H3
  ipureintro
  exact View.read_writes_eq_canon _ _ _ (coverCnt _)

end Cert.Kernel.Body

end
-- ==== Proof.BitsRun.lean ====
/-
  The kernel program's run, at any float instance: the region over the 32 samples followed by the later host lines.

  The proof data: every windowed array is as the region finds it; after the body at sample b the two input buffers still
  hold their blocks, the sums' buffer holds the mask-times-activations product of the two blocks and the counts' buffer
  the mask's row sums. Nothing is carried from one sample to the next, so the obligation at a point is the body's triple
  at that point's blocks. The run then ends with every windowed array at what the write-backs leave and every other
  buffer at what the later lines compute, and in particular with the three arguments as launched.
-/
import proofs.«113599_j8375186227913_1_alg».proof.Proof.BitsHost
import proofs.«113599_j8375186227913_1_alg».proof.Proof.BitsBody

set_option maxRecDepth 16384

noncomputable section

namespace Cert.Kernel.Run

open Cert.Kernel Cert.Kernel.Gen Cert.Kernel.Host Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer at its block, the
    sums' buffer at `outSums` and the counts' buffer at `outCnt` of the point's input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outSums (iblk m c 0 t) (iblk m c 1 t)
    | ⟨3, _⟩ => outCnt (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outSums (iblk m c 0 t) (iblk m c 1 t) := by dsimp only [dats]
theorem after3 (c : Dev nD) (t : Fin cfg0.N) : (dats m 0 c).after 3 t = outCnt (iblk m c 1 t) := by dsimp only [dats]

/-- Each input buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every windowed array at what the write-backs leave of the proof
    data and every other unscoped buffer at what the later lines compute from those arrays and the region-entry rest. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Run

end
-- ==== Proof.IdealHost.lean ====
/-
  The host side of the kernel program's run, at any float instance.

  @main is one host line (the step ids, [32, 2048], spread to [32, 1, 2048]), then one pipelined region over the 32
  samples — window 0 is sample b's [2048, 1024] block of activations, window 1 its row of 2048 step ids, window 2 its
  [32, 1024] block of per-step sums, window 3 its row of 32 per-step counts —, then 184 host lines in eighteen stretches.
  None of the later lines writes a windowed array or an argument, and none allocates. This module names what the
  region finds in each buffer (`V`), states @main as "host line, region, later lines", states what the later lines keep,
  reads each window's block at a point off its array, and reads the three argument arrays off a run of the region
  followed by the later lines: the first argument is a windowed input, so it ends at its entry contents; the other two
  are read by no window and written by no line.
-/
import proofs.«113599_j8375186227913_1_alg».proof.Proof.Gen.KernelIdeal.Launch
import proofs.«113599_j8375186227913_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Host

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-- The eighteen stretches of host lines after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17]

/-- The buffers no later line may write: the three arguments and the four windowed arrays. -/
abbrev keptRefs : List (Ref sig .tc) := [main_arg0, main_arg1, main_arg2, main_v0, main_v1_0, main_v1_1]

/-- A property of every operation of every stretch, read at a member. -/
theorem mem₂ {α : Type} {p : α → Prop} {l : List (List α)} (h : l.Forall fun ops => ops.Forall p) :
    ∀ ops ∈ l, ∀ op ∈ ops, p op := fun ops hops op hop =>
  List.forall_iff_forall_mem.mp (List.forall_iff_forall_mem.mp h ops hops) op hop

/-- Every later line touches TensorCore buffers only. -/
theorem tail_sub : (tailOps : List (List (HloOp τ sig (Elt F)))).Forall fun ops => ops.Forall fun op => op.bufs ⊆ StableHlo.tcRefs τ sig :=
  And.intro hostOps1_sub <| And.intro hostOps1_1_sub <| And.intro hostOps1_2_sub <| And.intro hostOps1_3_sub <| And.intro hostOps1_4_sub <| And.intro hostOps1_5_sub <| And.intro hostOps1_6_sub <| And.intro hostOps1_7_sub <| And.intro hostOps1_8_sub <| And.intro hostOps1_9_sub <| And.intro hostOps1_10_sub <| And.intro hostOps1_11_sub <| And.intro hostOps1_12_sub <| And.intro hostOps1_13_sub <| And.intro hostOps1_14_sub <| And.intro hostOps1_15_sub <| And.intro hostOps1_16_sub <| hostOps1_17_sub

/-- No later line allocates. -/
theorem tail_fresh : (tailOps : List (List (HloOp τ sig (Elt F)))).Forall fun ops => ops.Forall fun op => op.fresh = ∅ := by
  simp only [List.Forall]; repeat' constructor

/-- Every later line writes only its own result buffer, which is none of the kept ones. -/
theorem tail_keeps : (tailOps : List (List (HloOp τ sig (Elt F)))).Forall fun ops => ops.Forall fun op =>
    ∀ b ∈ keptRefs, Proc.devRef (τ := τ) .tc b ∉ op.writes := by
  simp only [List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact fun b hb => StableHlo.devRef_ne_of_ne (by revert b; decide)

/-- Each windowed array is a kept buffer. -/
theorem arr_kept : ∀ w, Pipeline.arrRef spec0 w ∈ keptRefs := by decide

variable (m : (ℓ : Loc nD τ sig) → Buf (Elt F) ℓ) (ρ : Dev nD → PrngReg)

/-! ## @main around the region -/

/-- Core `c`'s buffer contents when the region is entered: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- @main is the host line, the region, and the later lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; repeat' constructor) main_chain

/-- The later lines touch the windowed arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (mem₂ tail_sub ops hops op hop)

/-- They allocate nothing. -/
theorem sfx_fresh : ∀ ops ∈ (tailOps : List (List (HloOp τ sig (Elt F)))), ∀ op ∈ ops, op.fresh = ∅ :=
  mem₂ tail_fresh

/-- They write no windowed array. -/
theorem sfx_keeps : ∀ ops ∈ (tailOps : List (List (HloOp τ sig (Elt F)))), ∀ op ∈ ops,
    ∀ w, Proc.devRef .tc (Pipeline.arrRef spec0 w) ∉ op.writes :=
  fun ops hops op hop w => mem₂ tail_keeps ops hops op hop _ (arr_kept w)

/-- The host line before the region writes the spread step ids only: the region finds any other buffer as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.unary_writes, Finset.mem_singleton]
    exact StableHlo.devRef_ne_of_ne hb))

/-- A kept buffer that is no windowed array and not the spread step ids ends, after the later lines, as launched. -/
theorem W_of_kept (dats : (p : Fin 1) → (c : Dev nD) → Dat τ (Elt F) Unit ℕ (UR sig nD τ) ℕ (cfgs p) c) (c : Dev nD)
    (b : Ref sig .tc) (hb : b ∈ keptRefs) (hw : ∀ w, Pipeline.arrRef spec0 w ≠ b) (h0 : b ≠ main_v0) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact mem₂ tail_keeps ops hops op hop' b hb),
    Pipeline.withArrays_of_ne _ c (V0 m c) _ b hw]
  exact V_of_ne m c b h0

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' window holds its block at every point, fetched there or not, for any proof data over the
    region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the step ids' window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run of the region followed by the later lines, for any proof data over the region-entry arrays: the three
    argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans ((((dats 0 c).arrAt_in 0 rfl _).trans (hA c 0)).trans (V_of_ne m c main_arg0 (by decide))),
     ((h c).2 main_arg1 (Pipeline.mem_restRefs_of main_arg1 (by decide) (by decide))).trans
       (W_of_kept m dats c main_arg1 (by decide) (by decide) (by decide)),
     ((h c).2 main_arg2 (Pipeline.mem_restRefs_of main_arg2 (by decide) (by decide))).trans
       (W_of_kept m dats c main_arg2 (by decide) (by decide) (by decide))⟩) h

end Cert.KernelIdeal.Host

end
-- ==== Proof.IdealBody.lean ====
/-
  The kernel body on its four staging buffers, at any float instance.

  The body reads sample b's [1, 2048, 1024] block of activations and its [1, 1, 2048] row of step ids, and writes two
  buffers whole: the [1, 1, 32] row of counts (for each step s = 1 … 32, how many of the 2048 positions carry step id s,
  summed as floats) and the [1, 32, 1024] block of sums (the 0/1 step mask [32, 2048] times the absolute activations
  [2048, 1024]). Before each store the body also loads the output buffer it is about to overwrite; the loaded value is
  never used, so what the buffers held before does not matter. Each store covers its buffer, so after the body each
  output buffer holds exactly its stored value, a function of the two input blocks alone.
-/
import proofs.«113599_j8375186227913_1_alg».proof.Proof.Gen.KernelIdeal.Skeleton
import proofs.«113599_j8375186227913_1_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole buffer -/

abbrev rAct : Rect S1x2048x1024 := Rect.unit (s := S1x2048x1024) ![0, 0, 0] S1x2048x1024.size inb_S1x2048x1024_S1x2048x1024_0_0_0
abbrev rIds : Rect S1x1x2048 := Rect.unit (s := S1x1x2048) ![0, 0, 0] S1x1x2048.size inb_S1x1x2048_S1x1x2048_0_0_0
abbrev rSums : Rect S1x32x1024 := Rect.unit (s := S1x32x1024) ![0, 0, 0] S1x32x1024.size inb_S1x32x1024_S1x32x1024_0_0_0
abbrev rCnt : Rect S1x1x32 := Rect.unit (s := S1x1x32) ![0, 0, 0] S1x1x32.size inb_S1x1x32_S1x1x32_0_0_0

/-! ## What the body leaves in each output buffer -/

/-- The sums' buffer after the body: its one store, of the mask-times-activations product of the two input blocks. -/
def outSums (x0 : Vec F S1x2048x1024 .f32) (x1 : Vec F S1x1x2048 .i32) : Vec F S1x32x1024 .f32 :=
  View.canon [⟨rSums, k0_pay3 (View.ld x0 rAct) (View.ld x1 rIds)⟩]

/-- The counts' buffer after the body: its one store, of the row sums of the step mask of the step ids' block. -/
def outCnt (x1 : Vec F S1x1x2048 .i32) : Vec F S1x1x32 .f32 :=
  View.canon [⟨rCnt, k0_pay2 (View.ld x1 rIds)⟩]

/-- The store into the sums' buffer covers it. -/
theorem coverSums (p0 : Vec F S1x32x1024 .f32) (y : S1x32x1024.Idx) :
    ∃ pc ∈ ([⟨rSums, p0⟩] : List (View.Piece (Elt F) S1x32x1024 .f32)), y ∈ pc.1.set :=
  View.cover_of_tiled [⟨rSums, p0⟩] S1x32x1024.size (by rfl) y

/-- The store into the counts' buffer covers it. -/
theorem coverCnt (p0 : Vec F S1x1x32 .f32) (y : S1x1x32.Idx) :
    ∃ pc ∈ ([⟨rCnt, p0⟩] : List (View.Piece (Elt F) S1x1x32 .f32)), y ∈ pc.1.set :=
  View.cover_of_tiled [⟨rCnt, p0⟩] S1x1x32.size (by rfl) y

/-! ## The body's triple -/

set_option maxHeartbeats 1000000 in
/-- The body on whole staging buffers, the inputs' at contents `x0`, `x1` and the outputs' at anything, runs to the
    continuation with the inputs' as they were and the outputs' at `outSums x0 x1` and `outCnt x1`. -/
theorem sound_kernel (c : Dev nD) (E : Set ℕ) (i : grid0.Coords)
    (arg1 : Memref sig .tc .vmem S1x2048x1024 .f32) (harg1 : arg1.IsWhole) (arg2 : Memref sig .tc .vmem S1x1x2048 .i32) (harg2 : arg2.IsWhole)
    (arg3 : Memref sig .tc .vmem S1x32x1024 .f32) (harg3 : arg3.IsWhole) (arg4 : Memref sig .tc .vmem S1x1x32 .f32) (harg4 : arg4.IsWhole)
    (x0 : Vec F S1x2048x1024 .f32) (x1 : Vec F S1x1x2048 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outSums x0 x1) ∗ owns (c : Thread nD τ) arg4 fullShare (outCnt x1)) -∗ K ⟨⟩))
      ⊢ wp frame (wpE (defs₀ (F := F)) Variants.none c none) E (cc0__segment_sum_kernel i arg1 harg1 arg2 harg2 arg3 harg3 arg4 harg4) K := by
  simp only [cc0__segment_sum_kernel_eq_skeleton]; unfold cc0__segment_sum_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverSums _)
  iexists _; isplitr
  swap; · iexact H3
  ipureintro
  exact View.read_writes_eq_canon _ _ _ (coverCnt _)

end Cert.KernelIdeal.Body

end
-- ==== Proof.IdealRun.lean ====
/-
  The kernel program's run, at any float instance: the region over the 32 samples followed by the later host lines.

  The proof data: every windowed array is as the region finds it; after the body at sample b the two input buffers still
  hold their blocks, the sums' buffer holds the mask-times-activations product of the two blocks and the counts' buffer
  the mask's row sums. Nothing is carried from one sample to the next, so the obligation at a point is the body's triple
  at that point's blocks. The run then ends with every windowed array at what the write-backs leave and every other
  buffer at what the later lines compute, and in particular with the three arguments as launched.
-/
import proofs.«113599_j8375186227913_1_alg».proof.Proof.IdealHost
import proofs.«113599_j8375186227913_1_alg».proof.Proof.IdealBody

set_option maxRecDepth 16384

noncomputable section

namespace Cert.KernelIdeal.Run

open Cert.KernelIdeal Cert.KernelIdeal.Gen Cert.KernelIdeal.Host Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer at its block, the
    sums' buffer at `outSums` and the counts' buffer at `outCnt` of the point's input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outSums (iblk m c 0 t) (iblk m c 1 t)
    | ⟨3, _⟩ => outCnt (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outSums (iblk m c 0 t) (iblk m c 1 t) := by dsimp only [dats]
theorem after3 (c : Dev nD) (t : Fin cfg0.N) : (dats m 0 c).after 3 t = outCnt (iblk m c 1 t) := by dsimp only [dats]

/-- Each input buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every windowed array at what the write-backs leave of the proof
    data and every other unscoped buffer at what the later lines compute from those arrays and the region-entry rest. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Run

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.LibLaneSum.lean ====
/-
  Three readings at an index, for any extents, at the ideal values.

  * A sum along the lanes of an `[a, b]` array (the second axis dropped, starting from the zero word) read at row `p`
    is the sum over `k < b` of the array at `(p, k)`.
  * An `[a]` array viewed as a column `[a, 1]` reads, at `(p, u)`, the array at `p`; a column `[a, 1]` viewed as `[a]`
    reads, at `p`, the column at `(p, 0)`. (Both casts keep the row-major position.)
  * A load of `n` consecutive columns from column `c` of an `[a, w]` array, all rows, read at `(p, k)` is the array at
    `(p, c + k)`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Lib.LaneSum

open Idealize.ShloMosaic Idealize.ShloMosaic.ValueIdx

/-- A lane sum from the zero word, read at row `p`: the sum over the lanes of the entries of that row. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

variable {α : Type}

/-- An `[a]` array as a column `[a, 1]`, at `(p, u)`: the array at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` as an `[a]` array, at `p`: the column at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A load of the `n` columns from column `c`, every row, of an `[a, w]` array, at `(p, k)`: the array at `(p, c + k)`. -/
theorem ld_cols_apply {Val : EltTy → Type} {e : EltTy} {a w n : ℕ} (x : (⟨2, ![a, w]⟩ : Shape).Idx → Val e) (c : ℕ)
    (inb : ∀ d, (![0, c] : Fin 2 → ℕ) d + (![a, n] : Fin 2 → ℕ) d ≤ (⟨2, ![a, w]⟩ : Shape).size d)
    (p : Fin a) (k : Fin n) (hk : c + k.val < w) :
    View.ld x (Rect.unit (s := ⟨2, ![a, w]⟩) ![0, c] ![a, n] inb) (ix2 p k) = x (ix2 p ⟨c + k.val, hk⟩) := by
  show x ((Rect.unit (s := ⟨2, ![a, w]⟩) ![0, c] ![a, n] inb).idx (ix2 p k)) = _
  refine congrArg x (funext fun d => Fin.ext ?_)
  match d with
  | ⟨0, _⟩ => show 0 + 1 * p.val = p.val; omega
  | ⟨1, _⟩ => show c + 1 * k.val = c + k.val; omega

end Cert.Lib.LaneSum

end
-- ==== Proof.IdealPay.lean ====
/-
  The body's three values read at an entry, at the ideal values.

  For a row of 2048 step ids `v` (a [1, 1, 2048] block) and steps s = 0 … 31 (standing for step ids 1 … 32):
  * the mask bit at (s, t) is the comparison "the step id at position t equals s + 1";
  * the count written for step s is the sum over the 2048 positions of that bit read as a number (the bit widened to a
    word and read signed is the bit read unsigned: 0 or 1);
  * the sum written at (s, d), for a [1, 2048, 1024] block of activations `x`, is the sum over the positions t of the bit
    at (s, t) times |x (t, d)| — a matrix product into a zero accumulator, the changes of float format being the
    identity at the ideal values.
-/
import proofs.«113599_j8375186227913_1_alg».proof.Proof.Gen.KernelIdeal.Skeleton
import proofs.«113599_j8375186227913_1_alg».proof.Proof.LibMatSum
import proofs.«113599_j8375186227913_1_alg».proof.Proof.LibLaneSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.TcCoe Idealize.ShloMosaic.ValueIdx

/-- A column `[a, 1]` spread over `b` lanes reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bit widened to a word and read as a signed number is the bit read as an unsigned number. -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  rcases BitVec.eq_zero_or_eq_one b with h | h <;> subst h <;> simp

/-- The mask bit at step `s`, position `t`: the step id at `t` equals `s + 1`. -/
theorem pay1_apply (v2 : Vec Ideal S1x1x2048 .i32) (s : Fin 32) (t : Fin 2048) :
    k0_pay1 (F := Ideal) v2 (ix2 s t)
      = IntOp.cmpi .eq (v2 (ix3 (0 : Fin 1) (0 : Fin 1) t)) (IntOp.addi (BitVec.ofNat 32 s.val) 1#32) := by
  unfold k0_pay1
  show IntOp.cmpi .eq (broadcastTo S32x2048 (shapeCast S1x2048 v2 shapeCasts_S1x1x2048_S1x2048) broadcasts_S1x2048_S32x2048 (ix2 s t))
      (broadcastTo S32x2048 (addi (iota .tc S32x1 32 [0] iota_S32x1_d0_w32) (broadcast S32x1 1#32)) broadcasts_S32x1_S32x2048 (ix2 s t)) = _
  rw [broadcastTo_1b_ab_apply _ _ s t, shapeCast_1ab_ab_apply _ _ (0 : Fin 1) t, broadcastTo_a1_ab_apply _ _ s t]
  show IntOp.cmpi .eq _ (IntOp.addi (iota .tc S32x1 32 [0] iota_S32x1_d0_w32 (ix2 s (0 : Fin 1))) 1#32) = _
  rw [iota_single_apply]

/-- The count written for step `s`: the sum over the positions of the mask bit read as a number. -/
theorem pay2_apply (v2 : Vec Ideal S1x1x2048 .i32) (s : Fin 32) :
    k0_pay2 (F := Ideal) v2 (ix3 (0 : Fin 1) (0 : Fin 1) s)
      = ∑ t : Fin 2048, FloatOps.uitofp (F := Ideal) .f32 (k0_pay1 (F := Ideal) v2 (ix2 s t)) := by
  unfold k0_pay2
  show shapeCast S1x1x32 (shapeCast S1x32 (multiReduction .add [1] S32 (sitofp .f32 (extui 32 (k0_pay1 (F := Ideal) v2) natLt_1_32) : FVec Ideal S32x2048 .f32)
      0x00000000#32 reduces_S32x2048_S32 (.inl rfl) rfl) shapeCasts_S32_S1x32) shapeCasts_S1x32_S1x1x32 (ix3 (0 : Fin 1) (0 : Fin 1) s) = _
  rw [shapeCast_ab_1ab_apply _ _ (0 : Fin 1) (0 : Fin 1) s, shapeCast_a_1a_apply _ _ (0 : Fin 1) s]
  refine (Cert.Lib.LaneSum.laneSum_apply (a := 32) (b := 2048) _ reduces_S32x2048_S32 _ _ s).trans ?_
  exact Finset.sum_congr rfl fun t _ => sitofp_setWidth_bit _

/-- The sum written at step `s`, column `d`: over the positions, the mask bit as a number times the absolute activation. -/
theorem pay3_apply (v0 : Vec Ideal S1x2048x1024 .f32) (v2 : Vec Ideal S1x1x2048 .i32) (s : Fin 32) (d : Fin 1024) :
    k0_pay3 (F := Ideal) v0 v2 (ix3 (0 : Fin 1) s d)
      = ∑ t : Fin 2048, FloatOps.uitofp (F := Ideal) .f32 (k0_pay1 (F := Ideal) v2 (ix2 s t)) * FloatOps.absf (v0 (ix3 (0 : Fin 1) t d)) := by
  unfold k0_pay3
  show shapeCast S1x32x1024 (matmul dot_S32x2048_S2048x1024_S32x1024_1_0_0_1_n_n none
      (truncf .bf16 (sitofp .f32 (extui 32 (k0_pay1 (F := Ideal) v2) natLt_1_32) : FVec Ideal S32x2048 .f32) bitsLt_bf16_f32)
      (truncf .bf16 (absf (shapeCast S2048x1024 v0 shapeCasts_S1x2048x1024_S2048x1024)) bitsLt_bf16_f32)
      (constant S32x1024 .f32 0x00000000#32)) shapeCasts_S32x1024_S1x32x1024 (ix3 (0 : Fin 1) s d) = _
  rw [shapeCast_ab_1ab_apply _ _ (0 : Fin 1) s d]
  refine (Idealize.ShloMosaic.MatSum.matmul_zero_entry dot_S32x2048_S2048x1024_S32x1024_1_0_0_1_n_n_wf none _ _ s d).trans ?_
  refine Finset.sum_congr rfl fun t _ => ?_
  show FloatOps.sitofp (F := Ideal) .f32 ((k0_pay1 (F := Ideal) v2 (ix2 s t)).setWidth 32)
      * FloatOps.absf (shapeCast S2048x1024 v0 shapeCasts_S1x2048x1024_S2048x1024 (ix2 t d)) = _
  rw [sitofp_setWidth_bit, shapeCast_1ab_ab_apply _ _ t d]

end Cert.KernelIdeal.Pay

end
-- ==== Proof.RefEntry.lean ====
/-
  The reference's per-step sums and counts read at an entry, at the ideal values.

  With step ids `x1` ([32, 2048]) and activations `x0` ([32, 2048, 1024]), for sample b, step s (standing for step id
  s + 1) and column d: the sums' stage at (b, s, d) is the sum over the 2048 positions k of the bit "the step id at
  (b, k) equals 1 + s" read as a number, times |x0 (b, k, d)|; the counts' stage at (b, s) is the zero word's value
  plus the sum over k of that bit read as a number. (The stages' own read lemmas, chained; the composed index maps
  are the evident coordinates.)
-/
import proofs.«113599_j8375186227913_1_alg».proof.Proof.RefRead

noncomputable section

namespace Cert.ReferenceIdeal.Entry

open Cert.ReferenceIdeal Cert.ReferenceIdeal.ReadP
open Idealize.ShloMosaic Idealize.ShloMosaic.TcCoe Idealize.ShloMosaic.ValueIdx

/-- The bit "the step id at (b, k) is step s's id" as a number. -/
def wt (x1 : (⟨S32x2048, .i32⟩ : BufTy).Contents (Elt Ideal)) (b : Fin 32) (s : Fin 32) (k : Fin 2048) : EReal :=
  FloatOps.uitofp (F := Ideal) .f32 (IntOp.cmpi .eq (x1 (ix2 b k)) (IntOp.addi 1#32 (BitVec.ofNat 32 s.val)))

/-- The mask stage, as a number, at (b, k, s). -/
theorem mask_entry (x1 : (⟨S32x2048, .i32⟩ : BufTy).Contents (Elt Ideal)) (b : Fin 32) (k : Fin 2048) (s : Fin 32) :
    val_main_v9 (F := Ideal) x1 (ix3 b k s) = wt x1 b s k := by
  rw [val_main_v9_apply, val_main_v8_apply, val_main_v6_apply, val_main_v4_apply, val_main_v7_apply, val_main_v5_apply,
    val_main_v3_apply, val_main_v2_apply, val_main_c_apply, val_main_v1_apply]
  unfold wt
  have e1 : idx_main_v4 (idx_main_v6 (ix3 b k s)) = ix2 b k := funext fun a => Fin.ext (by
    match a with
    | ⟨0, _⟩ => rfl
    | ⟨1, _⟩ => rfl)
  rw [e1]

/-- The sums' stage at (b, s, d). -/
theorem sums_entry (x0 : (⟨S32x2048x1024, .f32⟩ : BufTy).Contents (Elt Ideal)) (x1 : (⟨S32x2048, .i32⟩ : BufTy).Contents (Elt Ideal))
    (b : Fin 32) (s : Fin 32) (d : Fin 1024) :
    val_main_v11 (F := Ideal) x0 x1 (ix3 b s d) = ∑ k : Fin 2048, wt x1 b s k * FloatOps.absf (F := Ideal) (φ := .f32) (x0 (ix3 b k d)) := by
  rw [val_main_v11_apply]
  refine Finset.sum_congr rfl fun k _ => ?_
  have el : lidx_main_v11 (ix3 b s d) k = ix3 b k s := funext fun a => Fin.ext (by
    match a with
    | ⟨0, _⟩ => rfl
    | ⟨1, _⟩ => rfl
    | ⟨2, _⟩ => rfl)
  have er : ridx_main_v11 (ix3 b s d) k = ix3 b k d := funext fun a => Fin.ext (by
    match a with
    | ⟨0, _⟩ => rfl
    | ⟨1, _⟩ => rfl
    | ⟨2, _⟩ => rfl)
  rw [el, er, mask_entry, val_main_v0_apply]
  rfl

/-- The counts' stage at (b, s). -/
theorem cnt_entry (x1 : (⟨S32x2048, .i32⟩ : BufTy).Contents (Elt Ideal)) (b : Fin 32) (s : Fin 32) :
    val_main_v10 (F := Ideal) x1 (ix2 b s) = Ideal.ofBits .f32 0x00000000#32 + ∑ k : Fin 2048, wt x1 b s k := by
  rw [val_main_v10_apply]
  refine congrArg₂ (· + ·) rfl (Finset.sum_congr rfl fun k _ => ?_)
  have e : idx_main_v10 (ix2 b s) k = ix3 b k s := funext fun a => Fin.ext (by
    match a with
    | ⟨0, _⟩ => rfl
    | ⟨1, _⟩ => rfl
    | ⟨2, _⟩ => rfl)
  rw [e, mask_entry]

end Cert.ReferenceIdeal.Entry

end
-- ==== Proof.IdealArrays.lean ====
/-
  The sums' and counts' arrays after the region, at the ideal values, as functions of the two argument arrays.

  Grid point b handles sample b: every window's block index is (b, 0, 0), and a block spans its array's other two axes
  whole. So the activations' block at point b, read at (0, k, d), is the activations at (b, k, d); the step ids' block,
  read at (0, 0, k), is the step ids at (b, k) (the region finds them spread to [32, 1, 2048]); and what point b writes
  back into the sums' array is, at (0, s, d), the sum over the positions k of the bit "step id at (b, k) is s + 1" times
  |activations (b, k, d)| — the reference's own sums at (b, s, d). The same for the counts, a [32, 1, 32] array whose
  entry (b, 0, s) is the reference's count at (b, s). Entry (b, ·, ·) of either array lies in point b's block and in no
  other, so the blocks cover the arrays and each array ends as that one function.
-/
import proofs.«113599_j8375186227913_1_alg».proof.Proof.IdealRun
import proofs.«113599_j8375186227913_1_alg».proof.Proof.IdealPay
import proofs.«113599_j8375186227913_1_alg».proof.Proof.RefEntry
import Idealize.ShloMosaic.Lib.Pipeline.Value
import Idealize.ShloMosaic.Lib.StableHlo.Run

set_option maxRecDepth 16384

noncomputable section

namespace Cert.KernelIdeal.Arr

open Cert.KernelIdeal Cert.KernelIdeal.Gen Cert.KernelIdeal.Host Cert.KernelIdeal.Body Cert.KernelIdeal.Run Cert.KernelIdeal.Pay
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The sample a grid point handles. -/
abbrev smp (t : Fin cfg0.N) : Fin 32 := Fin.cast N_0 t

theorem hz3 : (![0, 0, 0] : Fin 3 → Nat) = fun _ => 0 := funext fun a => by fin_cases a <;> rfl

/-- Every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The blocks of sample b, read at explicit coordinates -/

/-- The region finds the step ids spread to [32, 1, 2048]. -/
theorem V_ids (c : Dev nD) : V m c main_v0
    = broadcastInDim S32x1x2048 ![0, 2] bcast_S32x2048_S32x1x2048_0_2 (m ((c : Thread nD τ).loc main_arg1)) := by
  show StableHlo.after hostOps0 (fun b => m (c, b)) (Proc.devRef .tc main_v0) = _
  after_results

theorem emb_act (t : Fin cfg0.N) (k : Fin 2048) (d : Fin 1024) :
    ((cfg0.win 0).blk t).view.emb (ix3 (0 : Fin 1) k d) = ix3 (smp t) k d := by
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 2048 + 1 * k.val = k.val; omega
  | ⟨2, _⟩ => show win0_0.index t (2 : Fin 3) * 1024 + 1 * d.val = d.val; omega

theorem emb_ids (t : Fin cfg0.N) (k : Fin 2048) :
    ((cfg0.win 1).blk t).view.emb (ix3 (0 : Fin 1) (0 : Fin 1) k) = ix3 (smp t) (0 : Fin 1) k := by
  obtain ⟨-, -, -, e0, e1, e2, -⟩ := idx_facts t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 2048 + 1 * k.val = k.val; omega

theorem emb_sums (t : Fin cfg0.N) (s : Fin 32) (d : Fin 1024) :
    ((cfg0.win 2).blk t).view.emb (ix3 (0 : Fin 1) s d) = ix3 (smp t) s d := by
  obtain ⟨-, -, -, -, -, -, e0, e1, e2, -⟩ := idx_facts t
  funext a; apply Fin.ext
  match a with
  | ⟨0, _⟩ => show win0_2.index t (0 : Fin 3) * 1 + 1 * 0 = t.val; omega
  | ⟨1, _⟩ => show win0_2.index t (1 : Fin 3) * 32 + 1 * s.val = s.val; omega
  | ⟨2, _⟩ => show win0_2.index t (2 : Fin 3) * 1024 + 1 * d.val = d.val; omega

theorem emb_cnt (t : Fin cfg0.N) (s : Fin 32) :
    ((cfg0.win 3).blk t).view.emb (ix3 (0 : Fin 1) (0 : Fin 1) s) = ix3 (smp t) (0 : Fin 1) s := by
  obtain ⟨-, -, -, -, -, -, -, -, -, e0, e1, e2⟩ := idx_facts t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 32 + 1 * s.val = s.val; omega

/-- The activations' block of point t at (0, k, d): the activations at (t, k, d). -/
theorem blk_act (c : Dev nD) (t : Fin cfg0.N) (k : Fin 2048) (d : Fin 1024) :
    iblk m c 0 t (ix3 (0 : Fin 1) k d) = m ((c : Thread nD τ).loc main_arg0) (ix3 (smp t) k d) := by
  show V m c main_arg0 (((cfg0.win 0).blk t).view.emb (ix3 (0 : Fin 1) k d)) = _
  rw [V_of_ne m c main_arg0 (by decide), emb_act]

/-- The step ids' block of point t at (0, 0, k): the step id at (t, k). -/
theorem blk_ids (c : Dev nD) (t : Fin cfg0.N) (k : Fin 2048) :
    iblk m c 1 t (ix3 (0 : Fin 1) (0 : Fin 1) k) = m ((c : Thread nD τ).loc main_arg1) (ix2 (smp t) k) := by
  show V m c main_v0 (((cfg0.win 1).blk t).view.emb (ix3 (0 : Fin 1) (0 : Fin 1) k)) = _
  rw [V_ids, emb_ids]
  exact broadcastInDim_apply _ bcast_S32x2048_S32x1x2048_0_2 _ (ix3 (smp t) (0 : Fin 1) k) (ix2 (smp t) k) (fun a => match a with
    | ⟨0, _⟩ => by show t.val = if (32 : Nat) = 1 then 0 else t.val; rw [if_neg (by decide)]
    | ⟨1, _⟩ => by show k.val = if (2048 : Nat) = 1 then 0 else k.val; rw [if_neg (by decide)])

/-! ## The two arrays as functions of the arguments -/

/-- The sums' array: the reference's sums stage of the two argument arrays. -/
def Gs (c : Dev nD) : S32x32x1024.Idx → Elt Ideal .f32 :=
  Cert.ReferenceIdeal.ReadP.val_main_v11 (F := Ideal) (m ((c : Thread nD τ).loc main_arg0)) (m ((c : Thread nD τ).loc main_arg1))

/-- The counts' array, [32, 1, 32]: at (b, 0, s) the reference's counts stage at (b, s). -/
def Gc (c : Dev nD) : S32x1x32.Idx → Elt Ideal .f32 := fun i =>
  Cert.ReferenceIdeal.ReadP.val_main_v10 (F := Ideal) (m ((c : Thread nD τ).loc main_arg1)) (ix2 ⟨(i 0).val, (i 0).isLt⟩ ⟨(i 2).val, (i 2).isLt⟩)

/-- The two orders of "one plus the step" are one word. -/
theorem step_comm (s : Fin 32) : IntOp.addi (BitVec.ofNat 32 s.val) 1#32 = IntOp.addi 1#32 (BitVec.ofNat 32 s.val) :=
  BitVec.add_comm _ _

/-- The mask bit of point t's step ids' block at (s, k) is the reference's bit at (t, k, s). -/
theorem bit_eq (c : Dev nD) (t : Fin cfg0.N) (s : Fin 32) (k : Fin 2048) :
    FloatOps.uitofp (F := Ideal) .f32 (k0_pay1 (F := Ideal) (iblk m c 1 t) (ix2 s k))
      = Cert.ReferenceIdeal.Entry.wt (m ((c : Thread nD τ).loc main_arg1)) (smp t) s k := by
  rw [pay1_apply, blk_ids, step_comm]
  rfl

/-- What point t writes back into the sums' array is block t of `Gs`. -/
theorem flushed_sums (c : Dev nD) (t : Fin cfg0.N) :
    (dats m 0 c).flushed 2 t = ((cfg0.win 2).blk t).view.read (Elt Ideal) (Gs m c) := by
  show (cfg0.win 2).cut (grid0.coords t) ((dats m 0 c).after 2 t) = _
  rw [after2]
  unfold outSums
  rw [View.canon_unit_zero hz3]
  simp only [View.ld_unit_zero (S := S1x2048x1024) hz3, View.ld_unit_zero (S := S1x1x2048) hz3]
  funext j
  obtain ⟨p, s, d, rfl⟩ : ∃ (p : Fin 1) (s : Fin 32) (d : Fin 1024), j = ix3 p s d := ⟨j 0, j 1, j 2, eq_ix3 j⟩
  obtain rfl : p = 0 := Subsingleton.elim _ _
  show k0_pay3 (F := Ideal) (iblk m c 0 t) (iblk m c 1 t) (ix3 (0 : Fin 1) s d)
    = Gs m c (((cfg0.win 2).blk t).view.emb (ix3 (0 : Fin 1) s d))
  rw [pay3_apply, emb_sums]
  unfold Gs
  rw [Cert.ReferenceIdeal.Entry.sums_entry]
  refine Finset.sum_congr rfl fun k _ => ?_
  rw [bit_eq, blk_act]

/-- What point t writes back into the counts' array is block t of `Gc`. -/
theorem flushed_cnt (c : Dev nD) (t : Fin cfg0.N) :
    (dats m 0 c).flushed 3 t = ((cfg0.win 3).blk t).view.read (Elt Ideal) (Gc m c) := by
  show (cfg0.win 3).cut (grid0.coords t) ((dats m 0 c).after 3 t) = _
  rw [after3]
  unfold outCnt
  rw [View.canon_unit_zero hz3]
  simp only [View.ld_unit_zero (S := S1x1x2048) hz3]
  funext j
  obtain ⟨p, q, s, rfl⟩ : ∃ (p : Fin 1) (q : Fin 1) (s : Fin 32), j = ix3 p q s := ⟨j 0, j 1, j 2, eq_ix3 j⟩
  obtain rfl : p = 0 := Subsingleton.elim _ _
  obtain rfl : q = 0 := Subsingleton.elim _ _
  show k0_pay2 (F := Ideal) (iblk m c 1 t) (ix3 (0 : Fin 1) (0 : Fin 1) s)
    = Gc m c (((cfg0.win 3).blk t).view.emb (ix3 (0 : Fin 1) (0 : Fin 1) s))
  rw [pay2_apply, emb_cnt]
  show _ = Cert.ReferenceIdeal.ReadP.val_main_v10 (F := Ideal) (m ((c : Thread nD τ).loc main_arg1)) (ix2 (smp t) s)
  rw [Cert.ReferenceIdeal.Entry.cnt_entry, Ideal.ofBits_zero_f32, zero_add]
  exact Finset.sum_congr rfl fun k _ => bit_eq m c t s k

/-! ## The cover: entry (b, ·, ·) lies in point b's block -/

theorem mem_blk_sums (t : Fin cfg0.N) (i : S32x32x1024.Idx) :
    i ∈ ((cfg0.win 2).blk t).view.set ↔ ∀ a : Fin 3, win0_2.index t a * S1x32x1024.size a ≤ (i a).val
      ∧ (i a).val < win0_2.index t a * S1x32x1024.size a + S1x32x1024.size a := by
  show i ∈ ((View.whole main_v1_0).slice (win0_2.rect t)).set ↔ _
  rw [View.set_slice_whole, Rect.mem_set_unit]
  exact Iff.rfl

theorem mem_blk_cnt (t : Fin cfg0.N) (i : S32x1x32.Idx) :
    i ∈ ((cfg0.win 3).blk t).view.set ↔ ∀ a : Fin 3, win0_3.index t a * S1x1x32.size a ≤ (i a).val
      ∧ (i a).val < win0_3.index t a * S1x1x32.size a + S1x1x32.size a := by
  show i ∈ ((View.whole main_v1_1).slice (win0_3.rect t)).set ↔ _
  rw [View.set_slice_whole, Rect.mem_set_unit]
  exact Iff.rfl

theorem cover_sums (i : S32x32x1024.Idx) :
    ∃ t : Fin cfg0.N, (cfg0.win 2).flush t = true ∧ i ∈ ((cfg0.win 2).blk t).view.set := by
  have h0 : (i 0).val < 32 := (i 0).isLt
  have h1 : (i 1).val < 32 := (i 1).isLt
  have h2 : (i 2).val < 1024 := (i 2).isLt
  refine ⟨Fin.cast N_0.symm ⟨(i 0).val, h0⟩, flush0_2 _, ?_⟩
  rw [mem_blk_sums]
  obtain ⟨-, -, -, -, -, -, e0, e1, e2, -⟩ := idx_facts (Fin.cast N_0.symm ⟨(i 0).val, h0⟩)
  have e0' : win0_2.index (Fin.cast N_0.symm ⟨(i 0).val, h0⟩) (0 : Fin 3) = (i 0).val := e0
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 32 ≤ (i 1).val ∧ (i 1).val < win0_2.index _ (1 : Fin 3) * 32 + 32; omega
  | ⟨2, _⟩ => show win0_2.index _ (2 : Fin 3) * 1024 ≤ (i 2).val ∧ (i 2).val < win0_2.index _ (2 : Fin 3) * 1024 + 1024; omega

theorem cover_cnt (i : S32x1x32.Idx) :
    ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 32 := (i 2).isLt
  refine ⟨Fin.cast N_0.symm ⟨(i 0).val, h0⟩, flush0_3 _, ?_⟩
  rw [mem_blk_cnt]
  obtain ⟨-, -, -, -, -, -, -, -, -, e0, e1, e2⟩ := idx_facts (Fin.cast N_0.symm ⟨(i 0).val, h0⟩)
  have e0' : win0_3.index (Fin.cast N_0.symm ⟨(i 0).val, h0⟩) (0 : Fin 3) = (i 0).val := e0
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 32 ≤ (i 2).val ∧ (i 2).val < win0_3.index _ (2 : Fin 3) * 32 + 32; omega

/-! ## The arrays after the region -/

/-- The sums' array ends as the reference's sums of the arguments. -/
theorem final_sums (c : Dev nD) : (dats m 0 c).arrAt 2 cfg0.N = Gs m c :=
  (dats m 0 c).arrAt_eq_of_cover 2 (Gs m c) (fun t _ => flushed_sums m c t) cover_sums

/-- The counts' array ends as the reference's counts of the step ids, laid [32, 1, 32]. -/
theorem final_cnt (c : Dev nD) : (dats m 0 c).arrAt 3 cfg0.N = Gc m c :=
  (dats m 0 c).arrAt_eq_of_cover 3 (Gc m c) (fun t _ => flushed_cnt m c t) cover_cnt

/-- The counts' array viewed [32, 32] is the reference's counts. -/
theorem cast_cnt (c : Dev nD) : shapeCast S32x32 (Gc m c) shapeCasts_S32x1x32_S32x32
    = Cert.ReferenceIdeal.ReadP.val_main_v10 (F := Ideal) (m ((c : Thread nD τ).loc main_arg1)) := by
  funext j
  obtain ⟨b, s, rfl⟩ : ∃ (b : Fin 32) (s : Fin 32), j = ix2 b s := ⟨j 0, j 1, eq_ix2 j⟩
  refine (shapeCast_apply (Gc m c) shapeCasts_S32x1x32_S32x32 (ix2 b s) (ix3 b (0 : Fin 1) s) (by
    rw [Shape.rowMajor_val_three, Shape.rowMajor_val_two]
    show (b.val * 1 + 0) * 32 + s.val = b.val * 32 + s.val
    omega)).trans ?_
  rfl

end Cert.KernelIdeal.Arr

end
-- ==== Proof.SimRel.lean ====
/-
  The two programs' host lines, run side by side: what stays equal at each cut.

  After the sums and counts, both programs go on with the same operations in the same order, over buffers of their own.
  The lines are cut at six places; at each cut a few buffers are still read later, and the relation below says that each
  such buffer of the kernel program's contents `WK` holds what the corresponding buffer of the reference's contents `WR`
  holds. (The two programs number their buffers differently; the pairs are listed field by field.)
-/
import proofs.«113599_j8375186227913_1_alg».proof.Proof.Gen.KernelIdeal.Launch
import proofs.«113599_j8375186227913_1_alg».proof.Proof.RefRun
import Idealize.ShloMosaic.PureOps.Ideal

noncomputable section

namespace Cert.Sim

open Idealize.ShloMosaic Idealize.ShloMosaic.StableHlo

/-- Contents of the kernel program's buffers, and of the reference's, at the ideal values. -/
abbrev KV := Valuation Cert.KernelIdeal.τ Cert.KernelIdeal.sig (Elt Ideal)
abbrev RV := Valuation Cert.ReferenceIdeal.τ Cert.ReferenceIdeal.sig (Elt Ideal)

/-- The live buffers after the first chunk: the per-step means h, the step ids 1 … 32, the step mask, the positions 0 … 2047 laid [1, 2048, 1], the word 2048 standing for "absent", and the labels. -/
structure Rel0 (WK : KV) (WR : RV) : Prop where
  h : WK (Proc.devRef .tc Cert.KernelIdeal.main_v7) = WR (Proc.devRef .tc Cert.ReferenceIdeal.main_v16)
  steps : WK (Proc.devRef .tc Cert.KernelIdeal.main_v10) = WR (Proc.devRef .tc Cert.ReferenceIdeal.main_v3)
  mask : WK (Proc.devRef .tc Cert.KernelIdeal.main_v15) = WR (Proc.devRef .tc Cert.ReferenceIdeal.main_v8)
  posIota : WK (Proc.devRef .tc Cert.KernelIdeal.main_v17) = WR (Proc.devRef .tc Cert.ReferenceIdeal.main_v18)
  absent : WK (Proc.devRef .tc Cert.KernelIdeal.main_c_0) = WR (Proc.devRef .tc Cert.ReferenceIdeal.main_c_1)
  labels : WK (Proc.devRef .tc Cert.KernelIdeal.main_arg2) = WR (Proc.devRef .tc Cert.ReferenceIdeal.main_arg2)

/-- The live buffers after the first-appearance positions and their sorting permutation are computed. -/
structure Rel1 (WK : KV) (WR : RV) : Prop where
  h : WK (Proc.devRef .tc Cert.KernelIdeal.main_v7) = WR (Proc.devRef .tc Cert.ReferenceIdeal.main_v16)
  steps : WK (Proc.devRef .tc Cert.KernelIdeal.main_v10) = WR (Proc.devRef .tc Cert.ReferenceIdeal.main_v3)
  pos : WK (Proc.devRef .tc Cert.KernelIdeal.main_v19) = WR (Proc.devRef .tc Cert.ReferenceIdeal.main_v20)
  perm : WK (Proc.devRef .tc Cert.KernelIdeal.main_v20) = WR (Proc.devRef .tc Cert.ReferenceIdeal.main_v21)
  labels : WK (Proc.devRef .tc Cert.KernelIdeal.main_arg2) = WR (Proc.devRef .tc Cert.ReferenceIdeal.main_arg2)

/-- The live buffers after the steps and the positions are put in order of first appearance. -/
structure Rel2 (WK : KV) (WR : RV) : Prop where
  h : WK (Proc.devRef .tc Cert.KernelIdeal.main_v7) = WR (Proc.devRef .tc Cert.ReferenceIdeal.main_v16)
  perm : WK (Proc.devRef .tc Cert.KernelIdeal.main_v20) = WR (Proc.devRef .tc Cert.ReferenceIdeal.main_v21)
  ordSteps : WK (Proc.devRef .tc Cert.KernelIdeal.main_v23) = WR (Proc.devRef .tc Cert.ReferenceIdeal.main_v24)
  ordPos : WK (Proc.devRef .tc Cert.KernelIdeal.main_v24) = WR (Proc.devRef .tc Cert.ReferenceIdeal.main_v25)
  labels : WK (Proc.devRef .tc Cert.KernelIdeal.main_arg2) = WR (Proc.devRef .tc Cert.ReferenceIdeal.main_arg2)

/-- The live buffers after the presence bits and the means are put in that order. -/
structure Rel3 (WK : KV) (WR : RV) : Prop where
  ordSteps : WK (Proc.devRef .tc Cert.KernelIdeal.main_v23) = WR (Proc.devRef .tc Cert.ReferenceIdeal.main_v24)
  present : WK (Proc.devRef .tc Cert.KernelIdeal.main_v26) = WR (Proc.devRef .tc Cert.ReferenceIdeal.main_v27)
  ordH : WK (Proc.devRef .tc Cert.KernelIdeal.main_v28) = WR (Proc.devRef .tc Cert.ReferenceIdeal.main_v29)
  labels : WK (Proc.devRef .tc Cert.KernelIdeal.main_arg2) = WR (Proc.devRef .tc Cert.ReferenceIdeal.main_arg2)

/-- The live buffers after the number of present steps, the valid pairs and the rectified differences of adjacent means. -/
structure Rel4 (WK : KV) (WR : RV) : Prop where
  ordSteps : WK (Proc.devRef .tc Cert.KernelIdeal.main_v23) = WR (Proc.devRef .tc Cert.ReferenceIdeal.main_v24)
  nSteps : WK (Proc.devRef .tc Cert.KernelIdeal.main_v30) = WR (Proc.devRef .tc Cert.ReferenceIdeal.main_v31)
  pairValid : WK (Proc.devRef .tc Cert.KernelIdeal.main_v31) = WR (Proc.devRef .tc Cert.ReferenceIdeal.main_v32)
  diff : WK (Proc.devRef .tc Cert.KernelIdeal.main_v35) = WR (Proc.devRef .tc Cert.ReferenceIdeal.main_v36)
  labels : WK (Proc.devRef .tc Cert.KernelIdeal.main_arg2) = WR (Proc.devRef .tc Cert.ReferenceIdeal.main_arg2)

/-- The live buffers after the pairwise energies: the positive loss, the inverted-pair weights and their number, and the margin terms. -/
structure Rel5 (WK : KV) (WR : RV) : Prop where
  nSteps : WK (Proc.devRef .tc Cert.KernelIdeal.main_v30) = WR (Proc.devRef .tc Cert.ReferenceIdeal.main_v31)
  lossPos : WK (Proc.devRef .tc Cert.KernelIdeal.main_v46) = WR (Proc.devRef .tc Cert.ReferenceIdeal.main_v47)
  invf : WK (Proc.devRef .tc Cert.KernelIdeal.main_v51) = WR (Proc.devRef .tc Cert.ReferenceIdeal.main_v52)
  ninv : WK (Proc.devRef .tc Cert.KernelIdeal.main_v52) = WR (Proc.devRef .tc Cert.ReferenceIdeal.main_v53)
  margin : WK (Proc.devRef .tc Cert.KernelIdeal.main_v55) = WR (Proc.devRef .tc Cert.ReferenceIdeal.main_v56)
  labels : WK (Proc.devRef .tc Cert.KernelIdeal.main_arg2) = WR (Proc.devRef .tc Cert.ReferenceIdeal.main_arg2)

end Cert.Sim

end
-- ==== Proof.SimHead.lean ====
/-
  The first chunk of the two programs' host lines, where they differ in order.

  The kernel program, after viewing its [32, 1, 32] counts as [32, 32], divides its sums by max(counts, 1) spread over the
  columns, and computes the step ids 1 … 32, the step mask of the step ids, and the positions 0 … 2047. The reference
  computes the absolute activations, the step ids, the mask, the mask as numbers, the counts and the sums, and then the
  same quotient, positions and constant. If the kernel program's sums and viewed counts ARE the reference's sums and
  counts of the same two arguments, every buffer live after this chunk holds the same value on both sides.
-/
import proofs.«113599_j8375186227913_1_alg».proof.Proof.SimRel
import proofs.«113599_j8375186227913_1_alg».proof.Proof.RefRead

set_option maxRecDepth 16384
set_option maxHeartbeats 4000000

noncomputable section

namespace Cert.Sim

open Idealize.ShloMosaic Idealize.ShloMosaic.StableHlo

/-- The kernel program's first stretch after its first line (the view of the counts as [32, 32]). -/
abbrev Kc0 : List (HloOp Cert.KernelIdeal.τ Cert.KernelIdeal.sig (Elt Ideal)) := (Cert.KernelIdeal.Gen.hostOps1 (F := Ideal)).drop 1

/-- The reference's first 23 lines. -/
abbrev Rc0 : List (HloOp Cert.ReferenceIdeal.τ Cert.ReferenceIdeal.sig (Elt Ideal)) := ((Cert.ReferenceIdeal.ValueP.ops (F := Ideal)).drop 0).take 23

/-- From sums, viewed counts, step ids and labels that are the reference's, the first chunk leaves the live buffers equal. -/
theorem step0 {W1 : KV} {WR : RV}
    (hs : W1 (Proc.devRef .tc Cert.KernelIdeal.main_v1_0)
      = Cert.ReferenceIdeal.ReadP.val_main_v11 (F := Ideal) (WR (Proc.devRef .tc Cert.ReferenceIdeal.main_arg0)) (WR (Proc.devRef .tc Cert.ReferenceIdeal.main_arg1)))
    (hc : W1 (Proc.devRef .tc Cert.KernelIdeal.main_v2)
      = Cert.ReferenceIdeal.ReadP.val_main_v10 (F := Ideal) (WR (Proc.devRef .tc Cert.ReferenceIdeal.main_arg1)))
    (h1 : W1 (Proc.devRef .tc Cert.KernelIdeal.main_arg1) = WR (Proc.devRef .tc Cert.ReferenceIdeal.main_arg1))
    (h2 : W1 (Proc.devRef .tc Cert.KernelIdeal.main_arg2) = WR (Proc.devRef .tc Cert.ReferenceIdeal.main_arg2)) :
    Rel0 (after Kc0 W1) (after Rc0 WR) := by
  refine ⟨?_, ?_, ?_, ?_, ?_, ?_⟩
  · simp only [Kc0, Rc0, Cert.KernelIdeal.Gen.hostOps1, Cert.ReferenceIdeal.ValueP.ops, List.drop_succ_cons, List.drop_zero, List.take_succ_cons, List.take_zero]
    after_results_simp
    try simp only [hs, hc, h1, h2]
    try rfl
  · simp only [Kc0, Rc0, Cert.KernelIdeal.Gen.hostOps1, Cert.ReferenceIdeal.ValueP.ops, List.drop_succ_cons, List.drop_zero, List.take_succ_cons, List.take_zero]
    after_results_simp
    try simp only [hs, hc, h1, h2]
    try rfl
  · simp only [Kc0, Rc0, Cert.KernelIdeal.Gen.hostOps1, Cert.ReferenceIdeal.ValueP.ops, List.drop_succ_cons, List.drop_zero, List.take_succ_cons, List.take_zero]
    after_results_simp
    try simp only [hs, hc, h1, h2]
    try rfl
  · simp only [Kc0, Rc0, Cert.KernelIdeal.Gen.hostOps1, Cert.ReferenceIdeal.ValueP.ops, List.drop_succ_cons, List.drop_zero, List.take_succ_cons, List.take_zero]
    after_results_simp
    try simp only [hs, hc, h1, h2]
    try rfl
  · simp only [Kc0, Rc0, Cert.KernelIdeal.Gen.hostOps1, Cert.ReferenceIdeal.ValueP.ops, List.drop_succ_cons, List.drop_zero, List.take_succ_cons, List.take_zero]
    after_results_simp
    try simp only [hs, hc, h1, h2]
    try rfl
  · simp only [Kc0, Rc0, Cert.KernelIdeal.Gen.hostOps1, Cert.ReferenceIdeal.ValueP.ops, List.drop_succ_cons, List.drop_zero, List.take_succ_cons, List.take_zero]
    after_results_simp
    try simp only [hs, hc, h1, h2]
    try rfl

end Cert.Sim

end
-- ==== Proof.SimC1.lean ====
/-
  Chunk 1 of the two programs' host lines: the first-appearance position of each step (the least position carrying it, 2048 if none) and the permutation that sorts the steps by it.

  The kernel program's stretches of this chunk and the reference's 9 operations from position 23 are the same operations
  in the same order over corresponding buffers. So from contents that agree on the buffers live before the chunk, each
  buffer live after it is the same term of those, on both sides.
-/
import proofs.«113599_j8375186227913_1_alg».proof.Proof.SimRel

set_option maxRecDepth 16384
set_option maxHeartbeats 4000000

noncomputable section

namespace Cert.Sim

open Idealize.ShloMosaic Idealize.ShloMosaic.StableHlo

/-- The kernel program's lines of this chunk. -/
abbrev Kc1 : List (HloOp Cert.KernelIdeal.τ Cert.KernelIdeal.sig (Elt Ideal)) :=
  Cert.KernelIdeal.Gen.hostOps1_1 ++ Cert.KernelIdeal.Gen.hostOps1_2 ++ Cert.KernelIdeal.Gen.hostOps1_3

/-- The reference's lines of this chunk. -/
abbrev Rc1 : List (HloOp Cert.ReferenceIdeal.τ Cert.ReferenceIdeal.sig (Elt Ideal)) :=
  ((Cert.ReferenceIdeal.ValueP.ops (F := Ideal)).drop 23).take 9

/-- The chunk keeps the two programs' live buffers equal. -/
theorem step1 {WK : KV} {WR : RV} (s : Rel0 WK WR) :
    Rel1 (after Kc1 WK) (after Rc1 WR) := by
  refine ⟨?_, ?_, ?_, ?_, ?_⟩
  · simp only [Kc1, Rc1, Cert.KernelIdeal.Gen.hostOps1_1, Cert.KernelIdeal.Gen.hostOps1_2, Cert.KernelIdeal.Gen.hostOps1_3, Cert.ReferenceIdeal.ValueP.ops, List.cons_append, List.nil_append, List.append_nil,
      List.drop_succ_cons, List.drop_zero, List.take_succ_cons, List.take_zero]
    after_results_simp
    try simp only [s.h, s.steps, s.mask, s.posIota, s.absent, s.labels]
    try rfl
  · simp only [Kc1, Rc1, Cert.KernelIdeal.Gen.hostOps1_1, Cert.KernelIdeal.Gen.hostOps1_2, Cert.KernelIdeal.Gen.hostOps1_3, Cert.ReferenceIdeal.ValueP.ops, List.cons_append, List.nil_append, List.append_nil,
      List.drop_succ_cons, List.drop_zero, List.take_succ_cons, List.take_zero]
    after_results_simp
    try simp only [s.h, s.steps, s.mask, s.posIota, s.absent, s.labels]
    try rfl
  · simp only [Kc1, Rc1, Cert.KernelIdeal.Gen.hostOps1_1, Cert.KernelIdeal.Gen.hostOps1_2, Cert.KernelIdeal.Gen.hostOps1_3, Cert.ReferenceIdeal.ValueP.ops, List.cons_append, List.nil_append, List.append_nil,
      List.drop_succ_cons, List.drop_zero, List.take_succ_cons, List.take_zero]
    after_results_simp
    try simp only [s.h, s.steps, s.mask, s.posIota, s.absent, s.labels]
    try rfl
  · simp only [Kc1, Rc1, Cert.KernelIdeal.Gen.hostOps1_1, Cert.KernelIdeal.Gen.hostOps1_2, Cert.KernelIdeal.Gen.hostOps1_3, Cert.ReferenceIdeal.ValueP.ops, List.cons_append, List.nil_append, List.append_nil,
      List.drop_succ_cons, List.drop_zero, List.take_succ_cons, List.take_zero]
    after_results_simp
    try simp only [s.h, s.steps, s.mask, s.posIota, s.absent, s.labels]
    try rfl
  · simp only [Kc1, Rc1, Cert.KernelIdeal.Gen.hostOps1_1, Cert.KernelIdeal.Gen.hostOps1_2, Cert.KernelIdeal.Gen.hostOps1_3, Cert.ReferenceIdeal.ValueP.ops, List.cons_append, List.nil_append, List.append_nil,
      List.drop_succ_cons, List.drop_zero, List.take_succ_cons, List.take_zero]
    after_results_simp
    try simp only [s.h, s.steps, s.mask, s.posIota, s.absent, s.labels]
    try rfl

end Cert.Sim

end
-- ==== Proof.SimC2.lean ====
/-
  Chunk 2 of the two programs' host lines: the step ids and the positions taken along that permutation.

  The kernel program's stretches of this chunk and the reference's 46 operations from position 32 are the same operations
  in the same order over corresponding buffers. So from contents that agree on the buffers live before the chunk, each
  buffer live after it is the same term of those, on both sides.
-/
import proofs.«113599_j8375186227913_1_alg».proof.Proof.SimRel

set_option maxRecDepth 16384
set_option maxHeartbeats 4000000

noncomputable section

namespace Cert.Sim

open Idealize.ShloMosaic Idealize.ShloMosaic.StableHlo

/-- The kernel program's lines of this chunk. -/
abbrev Kc2 : List (HloOp Cert.KernelIdeal.τ Cert.KernelIdeal.sig (Elt Ideal)) :=
  Cert.KernelIdeal.Gen.hostOps1_4 ++ Cert.KernelIdeal.Gen.hostOps1_5 ++ Cert.KernelIdeal.Gen.hostOps1_6

/-- The reference's lines of this chunk. -/
abbrev Rc2 : List (HloOp Cert.ReferenceIdeal.τ Cert.ReferenceIdeal.sig (Elt Ideal)) :=
  ((Cert.ReferenceIdeal.ValueP.ops (F := Ideal)).drop 32).take 46

/-- The chunk keeps the two programs' live buffers equal. -/
theorem step2 {WK : KV} {WR : RV} (s : Rel1 WK WR) :
    Rel2 (after Kc2 WK) (after Rc2 WR) := by
  refine ⟨?_, ?_, ?_, ?_, ?_⟩
  · simp only [Kc2, Rc2, Cert.KernelIdeal.Gen.hostOps1_4, Cert.KernelIdeal.Gen.hostOps1_5, Cert.KernelIdeal.Gen.hostOps1_6, Cert.ReferenceIdeal.ValueP.ops, List.cons_append, List.nil_append, List.append_nil,
      List.drop_succ_cons, List.drop_zero, List.take_succ_cons, List.take_zero]
    after_results_simp
    try simp only [s.h, s.steps, s.pos, s.perm, s.labels]
    try rfl
  · simp only [Kc2, Rc2, Cert.KernelIdeal.Gen.hostOps1_4, Cert.KernelIdeal.Gen.hostOps1_5, Cert.KernelIdeal.Gen.hostOps1_6, Cert.ReferenceIdeal.ValueP.ops, List.cons_append, List.nil_append, List.append_nil,
      List.drop_succ_cons, List.drop_zero, List.take_succ_cons, List.take_zero]
    after_results_simp
    try simp only [s.h, s.steps, s.pos, s.perm, s.labels]
    try rfl
  · simp only [Kc2, Rc2, Cert.KernelIdeal.Gen.hostOps1_4, Cert.KernelIdeal.Gen.hostOps1_5, Cert.KernelIdeal.Gen.hostOps1_6, Cert.ReferenceIdeal.ValueP.ops, List.cons_append, List.nil_append, List.append_nil,
      List.drop_succ_cons, List.drop_zero, List.take_succ_cons, List.take_zero]
    after_results_simp
    try simp only [s.h, s.steps, s.pos, s.perm, s.labels]
    try rfl
  · simp only [Kc2, Rc2, Cert.KernelIdeal.Gen.hostOps1_4, Cert.KernelIdeal.Gen.hostOps1_5, Cert.KernelIdeal.Gen.hostOps1_6, Cert.ReferenceIdeal.ValueP.ops, List.cons_append, List.nil_append, List.append_nil,
      List.drop_succ_cons, List.drop_zero, List.take_succ_cons, List.take_zero]
    after_results_simp
    try simp only [s.h, s.steps, s.pos, s.perm, s.labels]
    try rfl
  · simp only [Kc2, Rc2, Cert.KernelIdeal.Gen.hostOps1_4, Cert.KernelIdeal.Gen.hostOps1_5, Cert.KernelIdeal.Gen.hostOps1_6, Cert.ReferenceIdeal.ValueP.ops, List.cons_append, List.nil_append, List.append_nil,
      List.drop_succ_cons, List.drop_zero, List.take_succ_cons, List.take_zero]
    after_results_simp
    try simp only [s.h, s.steps, s.pos, s.perm, s.labels]
    try rfl

end Cert.Sim

end
-- ==== Proof.SimC3.lean ====
/-
  Chunk 3 of the two programs' host lines: which ordered slots are present, and the per-step means taken along the permutation.

  The kernel program's stretches of this chunk and the reference's 26 operations from position 78 are the same operations
  in the same order over corresponding buffers. So from contents that agree on the buffers live before the chunk, each
  buffer live after it is the same term of those, on both sides.
-/
import proofs.«113599_j8375186227913_1_alg».proof.Proof.SimRel

set_option maxRecDepth 16384
set_option maxHeartbeats 4000000

noncomputable section

namespace Cert.Sim

open Idealize.ShloMosaic Idealize.ShloMosaic.StableHlo

/-- The kernel program's lines of this chunk. -/
abbrev Kc3 : List (HloOp Cert.KernelIdeal.τ Cert.KernelIdeal.sig (Elt Ideal)) :=
  Cert.KernelIdeal.Gen.hostOps1_7 ++ Cert.KernelIdeal.Gen.hostOps1_8

/-- The reference's lines of this chunk. -/
abbrev Rc3 : List (HloOp Cert.ReferenceIdeal.τ Cert.ReferenceIdeal.sig (Elt Ideal)) :=
  ((Cert.ReferenceIdeal.ValueP.ops (F := Ideal)).drop 78).take 26

/-- The chunk keeps the two programs' live buffers equal. -/
theorem step3 {WK : KV} {WR : RV} (s : Rel2 WK WR) :
    Rel3 (after Kc3 WK) (after Rc3 WR) := by
  refine ⟨?_, ?_, ?_, ?_⟩
  · simp only [Kc3, Rc3, Cert.KernelIdeal.Gen.hostOps1_7, Cert.KernelIdeal.Gen.hostOps1_8, Cert.ReferenceIdeal.ValueP.ops, List.cons_append, List.nil_append, List.append_nil,
      List.drop_succ_cons, List.drop_zero, List.take_succ_cons, List.take_zero]
    after_results_simp
    try simp only [s.h, s.perm, s.ordSteps, s.ordPos, s.labels]
    try rfl
  · simp only [Kc3, Rc3, Cert.KernelIdeal.Gen.hostOps1_7, Cert.KernelIdeal.Gen.hostOps1_8, Cert.ReferenceIdeal.ValueP.ops, List.cons_append, List.nil_append, List.append_nil,
      List.drop_succ_cons, List.drop_zero, List.take_succ_cons, List.take_zero]
    after_results_simp
    try simp only [s.h, s.perm, s.ordSteps, s.ordPos, s.labels]
    try rfl
  · simp only [Kc3, Rc3, Cert.KernelIdeal.Gen.hostOps1_7, Cert.KernelIdeal.Gen.hostOps1_8, Cert.ReferenceIdeal.ValueP.ops, List.cons_append, List.nil_append, List.append_nil,
      List.drop_succ_cons, List.drop_zero, List.take_succ_cons, List.take_zero]
    after_results_simp
    try simp only [s.h, s.perm, s.ordSteps, s.ordPos, s.labels]
    try rfl
  · simp only [Kc3, Rc3, Cert.KernelIdeal.Gen.hostOps1_7, Cert.KernelIdeal.Gen.hostOps1_8, Cert.ReferenceIdeal.ValueP.ops, List.cons_append, List.nil_append, List.append_nil,
      List.drop_succ_cons, List.drop_zero, List.take_succ_cons, List.take_zero]
    after_results_simp
    try simp only [s.h, s.perm, s.ordSteps, s.ordPos, s.labels]
    try rfl

end Cert.Sim

end
-- ==== Proof.SimC4.lean ====
/-
  Chunk 4 of the two programs' host lines: the number of present steps, the validity of adjacent pairs, and the rectified differences of adjacent means.

  The kernel program's stretches of this chunk and the reference's 10 operations from position 104 are the same operations
  in the same order over corresponding buffers. So from contents that agree on the buffers live before the chunk, each
  buffer live after it is the same term of those, on both sides.
-/
import proofs.«113599_j8375186227913_1_alg».proof.Proof.SimRel

set_option maxRecDepth 16384
set_option maxHeartbeats 4000000

noncomputable section

namespace Cert.Sim

open Idealize.ShloMosaic Idealize.ShloMosaic.StableHlo

/-- The kernel program's lines of this chunk. -/
abbrev Kc4 : List (HloOp Cert.KernelIdeal.τ Cert.KernelIdeal.sig (Elt Ideal)) :=
  Cert.KernelIdeal.Gen.hostOps1_9 ++ Cert.KernelIdeal.Gen.hostOps1_10

/-- The reference's lines of this chunk. -/
abbrev Rc4 : List (HloOp Cert.ReferenceIdeal.τ Cert.ReferenceIdeal.sig (Elt Ideal)) :=
  ((Cert.ReferenceIdeal.ValueP.ops (F := Ideal)).drop 104).take 10

/-- The chunk keeps the two programs' live buffers equal. -/
theorem step4 {WK : KV} {WR : RV} (s : Rel3 WK WR) :
    Rel4 (after Kc4 WK) (after Rc4 WR) := by
  refine ⟨?_, ?_, ?_, ?_, ?_⟩
  · simp only [Kc4, Rc4, Cert.KernelIdeal.Gen.hostOps1_9, Cert.KernelIdeal.Gen.hostOps1_10, Cert.ReferenceIdeal.ValueP.ops, List.cons_append, List.nil_append, List.append_nil,
      List.drop_succ_cons, List.drop_zero, List.take_succ_cons, List.take_zero]
    after_results_simp
    try simp only [s.ordSteps, s.present, s.ordH, s.labels]
    try rfl
  · simp only [Kc4, Rc4, Cert.KernelIdeal.Gen.hostOps1_9, Cert.KernelIdeal.Gen.hostOps1_10, Cert.ReferenceIdeal.ValueP.ops, List.cons_append, List.nil_append, List.append_nil,
      List.drop_succ_cons, List.drop_zero, List.take_succ_cons, List.take_zero]
    after_results_simp
    try simp only [s.ordSteps, s.present, s.ordH, s.labels]
    try rfl
  · simp only [Kc4, Rc4, Cert.KernelIdeal.Gen.hostOps1_9, Cert.KernelIdeal.Gen.hostOps1_10, Cert.ReferenceIdeal.ValueP.ops, List.cons_append, List.nil_append, List.append_nil,
      List.drop_succ_cons, List.drop_zero, List.take_succ_cons, List.take_zero]
    after_results_simp
    try simp only [s.ordSteps, s.present, s.ordH, s.labels]
    try rfl
  · simp only [Kc4, Rc4, Cert.KernelIdeal.Gen.hostOps1_9, Cert.KernelIdeal.Gen.hostOps1_10, Cert.ReferenceIdeal.ValueP.ops, List.cons_append, List.nil_append, List.append_nil,
      List.drop_succ_cons, List.drop_zero, List.take_succ_cons, List.take_zero]
    after_results_simp
    try simp only [s.ordSteps, s.present, s.ordH, s.labels]
    try rfl
  · simp only [Kc4, Rc4, Cert.KernelIdeal.Gen.hostOps1_9, Cert.KernelIdeal.Gen.hostOps1_10, Cert.ReferenceIdeal.ValueP.ops, List.cons_append, List.nil_append, List.append_nil,
      List.drop_succ_cons, List.drop_zero, List.take_succ_cons, List.take_zero]
    after_results_simp
    try simp only [s.ordSteps, s.present, s.ordH, s.labels]
    try rfl

end Cert.Sim

end
-- ==== Proof.SimC5.lean ====
/-
  Chunk 5 of the two programs' host lines: the pair energies, the positive loss per sample, the inverted pairs and the rectified margins.

  The kernel program's stretches of this chunk and the reference's 29 operations from position 114 are the same operations
  in the same order over corresponding buffers. So from contents that agree on the buffers live before the chunk, each
  buffer live after it is the same term of those, on both sides.
-/
import proofs.«113599_j8375186227913_1_alg».proof.Proof.SimRel

set_option maxRecDepth 16384
set_option maxHeartbeats 4000000

noncomputable section

namespace Cert.Sim

open Idealize.ShloMosaic Idealize.ShloMosaic.StableHlo

/-- The kernel program's lines of this chunk. -/
abbrev Kc5 : List (HloOp Cert.KernelIdeal.τ Cert.KernelIdeal.sig (Elt Ideal)) :=
  Cert.KernelIdeal.Gen.hostOps1_11 ++ Cert.KernelIdeal.Gen.hostOps1_12

/-- The reference's lines of this chunk. -/
abbrev Rc5 : List (HloOp Cert.ReferenceIdeal.τ Cert.ReferenceIdeal.sig (Elt Ideal)) :=
  ((Cert.ReferenceIdeal.ValueP.ops (F := Ideal)).drop 114).take 29

/-- The chunk keeps the two programs' live buffers equal. -/
theorem step5 {WK : KV} {WR : RV} (s : Rel4 WK WR) :
    Rel5 (after Kc5 WK) (after Rc5 WR) := by
  refine ⟨?_, ?_, ?_, ?_, ?_, ?_⟩
  · simp only [Kc5, Rc5, Cert.KernelIdeal.Gen.hostOps1_11, Cert.KernelIdeal.Gen.hostOps1_12, Cert.ReferenceIdeal.ValueP.ops, List.cons_append, List.nil_append, List.append_nil,
      List.drop_succ_cons, List.drop_zero, List.take_succ_cons, List.take_zero]
    after_results_simp
    try simp only [s.ordSteps, s.nSteps, s.pairValid, s.diff, s.labels]
    try rfl
  · simp only [Kc5, Rc5, Cert.KernelIdeal.Gen.hostOps1_11, Cert.KernelIdeal.Gen.hostOps1_12, Cert.ReferenceIdeal.ValueP.ops, List.cons_append, List.nil_append, List.append_nil,
      List.drop_succ_cons, List.drop_zero, List.take_succ_cons, List.take_zero]
    after_results_simp
    try simp only [s.ordSteps, s.nSteps, s.pairValid, s.diff, s.labels]
    try rfl
  · simp only [Kc5, Rc5, Cert.KernelIdeal.Gen.hostOps1_11, Cert.KernelIdeal.Gen.hostOps1_12, Cert.ReferenceIdeal.ValueP.ops, List.cons_append, List.nil_append, List.append_nil,
      List.drop_succ_cons, List.drop_zero, List.take_succ_cons, List.take_zero]
    after_results_simp
    try simp only [s.ordSteps, s.nSteps, s.pairValid, s.diff, s.labels]
    try rfl
  · simp only [Kc5, Rc5, Cert.KernelIdeal.Gen.hostOps1_11, Cert.KernelIdeal.Gen.hostOps1_12, Cert.ReferenceIdeal.ValueP.ops, List.cons_append, List.nil_append, List.append_nil,
      List.drop_succ_cons, List.drop_zero, List.take_succ_cons, List.take_zero]
    after_results_simp
    try simp only [s.ordSteps, s.nSteps, s.pairValid, s.diff, s.labels]
    try rfl
  · simp only [Kc5, Rc5, Cert.KernelIdeal.Gen.hostOps1_11, Cert.KernelIdeal.Gen.hostOps1_12, Cert.ReferenceIdeal.ValueP.ops, List.cons_append, List.nil_append, List.append_nil,
      List.drop_succ_cons, List.drop_zero, List.take_succ_cons, List.take_zero]
    after_results_simp
    try simp only [s.ordSteps, s.nSteps, s.pairValid, s.diff, s.labels]
    try rfl
  · simp only [Kc5, Rc5, Cert.KernelIdeal.Gen.hostOps1_11, Cert.KernelIdeal.Gen.hostOps1_12, Cert.ReferenceIdeal.ValueP.ops, List.cons_append, List.nil_append, List.append_nil,
      List.drop_succ_cons, List.drop_zero, List.take_succ_cons, List.take_zero]
    after_results_simp
    try simp only [s.ordSteps, s.nSteps, s.pairValid, s.diff, s.labels]
    try rfl

end Cert.Sim

end
-- ==== Proof.SimC6.lean ====
/-
  Chunk 6 of the two programs' host lines: the negative loss, the two selections by label, their totals, and the final quotient.

  The kernel program's stretches of this chunk and the reference's 45 operations from position 143 are the same operations
  in the same order over corresponding buffers. So from contents that agree on the buffers live before the chunk, each
  buffer live after it is the same term of those, on both sides.
-/
import proofs.«113599_j8375186227913_1_alg».proof.Proof.SimRel

set_option maxRecDepth 16384
set_option maxHeartbeats 4000000

noncomputable section

namespace Cert.Sim

open Idealize.ShloMosaic Idealize.ShloMosaic.StableHlo

/-- The kernel program's lines of this chunk. -/
abbrev Kc6 : List (HloOp Cert.KernelIdeal.τ Cert.KernelIdeal.sig (Elt Ideal)) :=
  Cert.KernelIdeal.Gen.hostOps1_13 ++ Cert.KernelIdeal.Gen.hostOps1_14 ++ Cert.KernelIdeal.Gen.hostOps1_15 ++ Cert.KernelIdeal.Gen.hostOps1_16 ++ Cert.KernelIdeal.Gen.hostOps1_17

/-- The reference's lines of this chunk. -/
abbrev Rc6 : List (HloOp Cert.ReferenceIdeal.τ Cert.ReferenceIdeal.sig (Elt Ideal)) :=
  ((Cert.ReferenceIdeal.ValueP.ops (F := Ideal)).drop 143).take 45

/-- The chunk keeps the two programs' live buffers equal. -/
theorem step6 {WK : KV} {WR : RV} (s : Rel5 WK WR) :
    after Kc6 WK (Proc.devRef .tc Cert.KernelIdeal.main_v83) = after Rc6 WR (Proc.devRef .tc Cert.ReferenceIdeal.main_v84) := by
  simp only [Kc6, Rc6, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.ReferenceIdeal.ValueP.ops, List.cons_append, List.nil_append, List.append_nil,
      List.drop_succ_cons, List.drop_zero, List.take_succ_cons, List.take_zero]
  after_results_simp
  try simp only [s.nSteps, s.lossPos, s.invf, s.ninv, s.margin, s.labels]
  try rfl

end Cert.Sim

end
-- ==== Proof.LibFold.lean ====
/-
  The fold of a line of host operations over buffer contents, cut into pieces.

  `after ops V` is the buffer contents after the operations `ops`, in order, from contents `V`. Running a concatenation is
  running its parts one after the other (the library's lemma); so a line run from position `a` on is its next `n`
  operations followed by the line from position `a + n` on, and a line run from its own length on changes nothing.
-/
import Idealize.ShloMosaic.Lib.StableHlo.Run
import Idealize.ShloMosaic.Lib.Pipeline.Frame

noncomputable section

namespace Cert.Lib.Fold

open Idealize.ShloMosaic Idealize.ShloMosaic.StableHlo

variable {τ : Topo} {sig : RefSig} {Val : EltTy → Type}

/-- A line from position `a` on: its next `n` operations, then the line from position `a + n` on. -/
theorem after_drop_split (l : List (HloOp τ sig Val)) (a n : Nat) (V : Valuation τ sig Val) :
    after (l.drop a) V = after (l.drop (a + n)) (after ((l.drop a).take n) V) := by
  rw [← StableHlo.after_append, ← List.drop_drop, List.take_append_drop]

/-- A line from its length on is empty. -/
theorem after_drop_length (l : List (HloOp τ sig Val)) (a : Nat) (h : l.length ≤ a) (V : Valuation τ sig Val) :
    after (l.drop a) V = V := by
  rw [List.drop_of_length_le h]; rfl

end Cert.Lib.Fold

end
-- ==== Proof.SimAll.lean ====
/-
  The two programs' host lines end with equal results, given the reference's sums and counts on the kernel program's side.

  The kernel program's later lines are: the view of its [32, 1, 32] counts as [32, 32]; the first chunk; chunks one to six.
  The reference's line is its first 23 operations and then the same six chunks. Each chunk keeps the live buffers of the
  two programs equal, so the last chunk's one result is equal on both sides.
-/
import proofs.«113599_j8375186227913_1_alg».proof.Proof.SimHead
import proofs.«113599_j8375186227913_1_alg».proof.Proof.SimC1
import proofs.«113599_j8375186227913_1_alg».proof.Proof.SimC2
import proofs.«113599_j8375186227913_1_alg».proof.Proof.SimC3
import proofs.«113599_j8375186227913_1_alg».proof.Proof.SimC4
import proofs.«113599_j8375186227913_1_alg».proof.Proof.SimC5
import proofs.«113599_j8375186227913_1_alg».proof.Proof.SimC6
import proofs.«113599_j8375186227913_1_alg».proof.Proof.LibFold
import proofs.«113599_j8375186227913_1_alg».proof.Proof.IdealHost

set_option maxRecDepth 16384

noncomputable section

namespace Cert.Sim

open Cert.Lib.Fold
open Idealize.ShloMosaic Idealize.ShloMosaic.StableHlo
open Cert.KernelIdeal Cert.KernelIdeal.Gen Cert.KernelIdeal.Host

/-- The kernel program's first later line: its [32, 1, 32] counts viewed [32, 32]. -/
abbrev KcView : List (HloOp τ sig (Elt Ideal)) := (hostOps1 (F := Ideal)).take 1

/-- The later lines, cut. -/
theorem tail_split : (tailOps (F := Ideal)).flatten
    = KcView ++ (Kc0 ++ (Kc1 ++ (Kc2 ++ (Kc3 ++ (Kc4 ++ (Kc5 ++ Kc6)))))) := rfl

/-- The view writes the viewed counts. -/
theorem view_counts (W : KV) : after KcView W (Proc.devRef .tc main_v2)
    = shapeCast S32x32 (W (Proc.devRef .tc main_v1_1)) shapeCasts_S32x1x32_S32x32 := by
  simp only [KcView, hostOps1, List.take_succ_cons, List.take_zero]
  after_results
  rfl

/-- And nothing else. -/
theorem view_other (W : KV) (b : Ref sig .tc) (hb : b ≠ main_v2) :
    after KcView W (Proc.devRef .tc b) = W (Proc.devRef .tc b) :=
  after_of_forall_not_mem _ _ fun op hop => by
    simp only [KcView, hostOps1, List.take_succ_cons, List.take_zero, List.mem_singleton] at hop
    subst hop
    simp only [reshape_writes, Finset.mem_singleton]
    exact devRef_ne_of_ne hb

/-- The reference's line, cut at the matching positions. -/
theorem ref_split (WR : RV) : after (Cert.ReferenceIdeal.ValueP.ops (F := Ideal)) WR
    = after Rc6 (after Rc5 (after Rc4 (after Rc3 (after Rc2 (after Rc1 (after Rc0 WR)))))) := by
  have hlen : (Cert.ReferenceIdeal.ValueP.ops (F := Ideal)).length ≤ 188 := Nat.le_of_eq rfl
  have e0 := after_drop_split (Cert.ReferenceIdeal.ValueP.ops (F := Ideal)) 0 23 WR
  have e1 := after_drop_split (Cert.ReferenceIdeal.ValueP.ops (F := Ideal)) 23 9 (after Rc0 WR)
  have e2 := after_drop_split (Cert.ReferenceIdeal.ValueP.ops (F := Ideal)) 32 46 (after Rc1 (after Rc0 WR))
  have e3 := after_drop_split (Cert.ReferenceIdeal.ValueP.ops (F := Ideal)) 78 26 (after Rc2 (after Rc1 (after Rc0 WR)))
  have e4 := after_drop_split (Cert.ReferenceIdeal.ValueP.ops (F := Ideal)) 104 10 (after Rc3 (after Rc2 (after Rc1 (after Rc0 WR))))
  have e5 := after_drop_split (Cert.ReferenceIdeal.ValueP.ops (F := Ideal)) 114 29 (after Rc4 (after Rc3 (after Rc2 (after Rc1 (after Rc0 WR)))))
  have e6 := after_drop_split (Cert.ReferenceIdeal.ValueP.ops (F := Ideal)) 143 45 (after Rc5 (after Rc4 (after Rc3 (after Rc2 (after Rc1 (after Rc0 WR))))))
  have e7 := after_drop_length (Cert.ReferenceIdeal.ValueP.ops (F := Ideal)) 188 hlen
    (after Rc6 (after Rc5 (after Rc4 (after Rc3 (after Rc2 (after Rc1 (after Rc0 WR)))))))
  exact e0.trans (e1.trans (e2.trans (e3.trans (e4.trans (e5.trans (e6.trans e7))))))

/-- From contents whose sums and viewed counts are the reference's sums and counts of the reference's arguments, and
    whose step ids and labels are the reference's, the kernel program's later lines end with the reference's result. -/
theorem tail_eq (W : KV) (WR : RV)
    (hs : W (Proc.devRef .tc main_v1_0)
      = Cert.ReferenceIdeal.ReadP.val_main_v11 (F := Ideal) (WR (Proc.devRef .tc Cert.ReferenceIdeal.main_arg0)) (WR (Proc.devRef .tc Cert.ReferenceIdeal.main_arg1)))
    (hc : shapeCast S32x32 (W (Proc.devRef .tc main_v1_1)) shapeCasts_S32x1x32_S32x32
      = Cert.ReferenceIdeal.ReadP.val_main_v10 (F := Ideal) (WR (Proc.devRef .tc Cert.ReferenceIdeal.main_arg1)))
    (h1 : W (Proc.devRef .tc main_arg1) = WR (Proc.devRef .tc Cert.ReferenceIdeal.main_arg1))
    (h2 : W (Proc.devRef .tc main_arg2) = WR (Proc.devRef .tc Cert.ReferenceIdeal.main_arg2)) :
    after (tailOps (F := Ideal)).flatten W (Proc.devRef .tc main_v83)
      = after (Cert.ReferenceIdeal.ValueP.ops (F := Ideal)) WR (Proc.devRef .tc Cert.ReferenceIdeal.main_v84) := by
  rw [tail_split]
  simp only [StableHlo.after_append]
  rw [ref_split]
  refine step6 (step5 (step4 (step3 (step2 (step1 (step0 ?_ ?_ ?_ ?_))))))
  · rw [view_other W main_v1_0 (by decide)]; exact hs
  · rw [view_counts]; exact hc
  · rw [view_other W main_arg1 (by decide)]; exact h1
  · rw [view_other W main_arg2 (by decide)]; exact h2

end Cert.Sim

end
-- ==== Proof.RefFold.lean ====
/-
  The reference program's run, at any float instance, over the fold of its 188 host operations.

  @main is that line of operations, nothing in it is scoped, every operation touches TensorCore buffers only and none
  allocates; so every execution ends with each buffer at the fold of the line over the launch contents. No operation
  writes an argument array, so the three arguments end as launched.
-/
import proofs.«113599_j8375186227913_1_alg».proof.Proof.RefRun

set_option maxRecDepth 16384

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxHeartbeats 4000000 in
/-- Every weakly fair execution of @main terminates with every buffer at the line's fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The three argument arrays. -/
abbrev argRefs : List (Ref sig .tc) := [main_arg0, main_arg1, main_arg2]

set_option maxHeartbeats 4000000 in
/-- No operation of the line writes an argument array: each writes only its own result buffer. -/
theorem ops_keep : (ops : List (HloOp τ sig (Elt F))).Forall fun op => ∀ b ∈ argRefs, Proc.devRef (τ := τ) .tc b ∉ op.writes := by
  simp only [ops, List.Forall, nullary_writes, unary_writes, binary_writes, ternary_writes, quaternary_writes, reshape_writes,
    binaryIndexed_writes, Finset.mem_singleton]
  repeat' apply And.intro
  all_goals exact fun b hb => devRef_ne_of_ne (by revert b; decide)

/-- An argument array after the line is the argument array before it. -/
theorem arg_kept (V : Valuation τ sig (Elt F)) (b : Ref sig .tc) (hb : b ∈ argRefs) :
    after ops V (Proc.devRef .tc b) = V (Proc.devRef .tc b) :=
  after_of_forall_not_mem _ _ fun op hop => List.forall_iff_forall_mem.mp ops_keep op hop b hb

/-- The frame: @main runs to the end and leaves its three argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c main_arg0).trans (arg_kept _ main_arg0 (by decide)),
     (h c main_arg1).trans (arg_kept _ main_arg1 (by decide)),
     (h c main_arg2).trans (arg_kept _ main_arg2 (by decide))⟩) (run_fold m ρ)

end Cert.ReferenceIdeal.Fold

end
-- ==== Proof.IdealResult.lean ====
/-
  The kernel program's result, at the ideal values, and that the reference computes the same value.

  The kernel program's run ends with its result buffer at what the later lines compute from the arrays the region leaves
  (the sums' and counts' arrays) and from the step ids and labels, and with its arguments as launched. The region leaves
  the reference's own sums of the arguments in the sums' array and, viewed [32, 32], the reference's own counts in the
  counts' array; from there on the two programs apply the same operations. So from a reference memory agreeing with the
  kernel program's on the three arguments, the reference's line of operations ends with the same result.
-/
import proofs.«113599_j8375186227913_1_alg».proof.Proof.IdealArrays
import proofs.«113599_j8375186227913_1_alg».proof.Proof.SimAll
import proofs.«113599_j8375186227913_1_alg».proof.Proof.RefFold

set_option maxRecDepth 16384

noncomputable section

namespace Cert.KernelIdeal.Result

open Cert.KernelIdeal Cert.KernelIdeal.Gen Cert.KernelIdeal.Host Cert.KernelIdeal.Run Cert.KernelIdeal.Arr
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result on core `c`: the later lines' value from the arrays the region leaves and the region-entry rest. -/
def result (c : Dev nD) : Buf (Elt Ideal) ((c.tc : Thread nD τ).loc main_v83) :=
  Pipeline.afterTail₀ cfgs (dats m) 0 (V0 m) tailOps c main_v83

/-- Every execution of the kernel program ends with its result buffer at `result` and its arguments as launched. -/
theorem run_result : θ_run defs (onTc (τ := τ) (main (F := Ideal))) ⟨m, fun _ => 0, ρ⟩ (fun r => ∀ c : Dev nD,
      r.2.mem ((c.tc : Thread nD τ).loc main_v83) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v83 (Pipeline.mem_restRefs_of main_v83 (by decide) (by decide)),
     ((h c).1 0).trans ((((dats m 0 c).arrAt_in 0 rfl _).trans (A_eq m c 0)).trans (V_of_ne m c main_arg0 (by decide))),
     ((h c).2 main_arg1 (Pipeline.mem_restRefs_of main_arg1 (by decide) (by decide))).trans
       (W_of_kept m (dats m) c main_arg1 (by decide) (by decide) (by decide)),
     ((h c).2 main_arg2 (Pipeline.mem_restRefs_of main_arg2 (by decide) (by decide))).trans
       (W_of_kept m (dats m) c main_arg2 (by decide) (by decide) (by decide))⟩) (run_main m ρ)

/-- From a reference memory agreeing on the three arguments, the reference's line ends with the kernel program's result. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    StableHlo.after (Cert.ReferenceIdeal.ValueP.ops (F := Ideal)) (StableHlo.launchContents m' c) (Proc.devRef .tc Cert.ReferenceIdeal.main_v84)
      = result m c := by
  unfold result Pipeline.afterTail₀
  refine (Cert.Sim.tail_eq _ (StableHlo.launchContents m' c) ?_ ?_ ?_ ?_).symm
  · refine (Pipeline.withArrays_arr spec0 launch0.win.arr_inj c (V0 m c) _ 2).trans ((final_sums m c).trans ?_)
    show Cert.ReferenceIdeal.ReadP.val_main_v11 (F := Ideal) (m ((c : Thread nD τ).loc main_arg0)) (m ((c : Thread nD τ).loc main_arg1))
      = Cert.ReferenceIdeal.ReadP.val_main_v11 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
    rw [h0, h1]
  · refine (congrArg (fun a => shapeCast S32x32 a shapeCasts_S32x1x32_S32x32)
      ((Pipeline.withArrays_arr spec0 launch0.win.arr_inj c (V0 m c) _ 3).trans (final_cnt m c))).trans ((cast_cnt m c).trans ?_)
    show Cert.ReferenceIdeal.ReadP.val_main_v10 (F := Ideal) (m ((c : Thread nD τ).loc main_arg1))
      = Cert.ReferenceIdeal.ReadP.val_main_v10 (F := Ideal) (m' ((c.tc : Thread Cert.ReferenceIdeal.nD Cert.ReferenceIdeal.τ).loc Cert.ReferenceIdeal.main_arg1))
    rw [h1]
  · refine (Pipeline.withArrays_of_ne spec0 c (V0 m c) _ main_arg1 (by decide)).trans ((V_of_ne m c main_arg1 (by decide)).trans ?_)
    exact h1.symm
  · refine (Pipeline.withArrays_of_ne spec0 c (V0 m c) _ main_arg2 (by decide)).trans ((V_of_ne m c main_arg2 (by decide)).trans ?_)
    exact h2.symm

end Cert.KernelIdeal.Result

end
-- ==== Proof.lean ====
/-
  Max-margin loss over step segments: the kernel program against its reference, over the extended reals.

  Both programs take activations x [32, 2048, 1024], step ids [32, 2048] and labels [32]. For each sample b and step
  s = 1 … 32 they form the sum over the positions t carrying step id s of |x (b, t, ·)| and the number of such positions,
  divide the one by max(the other, 1), order the steps of each sample by first appearance, and reduce the rectified
  differences of adjacent ordered means to one number with the labels.

  The kernel program computes the sums and counts in one pipelined region over the samples: at sample b a matrix
  product of the 0/1 step mask [32, 2048] with |x (b)| [2048, 1024] into a zero accumulator (the changes of float
  format around it are the identity at the ideal values) and the mask's row sums. The reference computes them on the
  host as a batched contraction of the mask, as numbers, with |x| and as a sum of the mask over the positions. Entry by
  entry both are the sum over the 2048 positions of the bit "step id at (b, t) is s" as a number times |x (b, t, d)|,
  and the sum of those bits. Everything after the sums and counts is the same line of host operations in both
  programs, so the results agree; no finiteness of the activations is needed, since no law beyond reading each
  operation at an index is used.

  The frames: the region's body loads two input blocks and stores two output blocks whole, nothing is carried between
  samples, and no host line writes an argument or a windowed array, so every execution terminates and the arguments end
  as launched; the reference is a straight line of host operations none of which writes an argument. The idealization
  rewrote no operation, so the preservation claim is trivial.
-/
import proofs.«113599_j8375186227913_1_alg».proof.Defs
import proofs.«113599_j8375186227913_1_alg».proof.Proof.Gen.Kernel
import proofs.«113599_j8375186227913_1_alg».proof.Proof.Gen.KernelIdeal
import proofs.«113599_j8375186227913_1_alg».proof.Proof.Gen.ReferenceIdeal
import proofs.«113599_j8375186227913_1_alg».proof.Proof.Gen.Pre_finite_inputs
import proofs.«113599_j8375186227913_1_alg».proof.Proof.BitsRun
import proofs.«113599_j8375186227913_1_alg».proof.Proof.IdealRun
import proofs.«113599_j8375186227913_1_alg».proof.Proof.IdealResult
import proofs.«113599_j8375186227913_1_alg».proof.Proof.RefFold
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Run.frame m ρ

/-- So does the idealized kernel program. -/
theorem frame_ki : Cert.frame_KernelIdeal := fun m ρ _ => Cert.KernelIdeal.Run.frame m ρ

/-- And the idealized reference. -/
theorem frame_ri : Cert.frame_ReferenceIdeal := fun m ρ _ => Cert.ReferenceIdeal.Fold.frame m ρ

/-- The idealization rewrote nothing. -/
theorem preserves : Cert.preserves_Kernel_KernelIdeal := trivial

/-- From memories agreeing on the arguments both idealized programs run and end with the same result. -/
theorem algebraic : Cert.algebraic_KernelIdeal_ReferenceIdeal := by
  intro m ρ m' ρ' _ hagree
  refine ⟨fun c => Cert.KernelIdeal.Result.result m c, Cert.KernelIdeal.Result.run_result m ρ, ?_⟩
  refine (θ_run Cert.ReferenceIdeal.defs _ _).mono (fun _ h c => ⟨?_, ?_, ?_, ?_⟩)
    (Cert.ReferenceIdeal.Fold.run_fold (F := Ideal) m' ρ')
  · exact (h c Cert.ReferenceIdeal.main_v84).trans
      (Cert.KernelIdeal.Result.result_eq m m' c (hagree c).1 (hagree c).2.1 (hagree c).2.2)
  · exact (h c Cert.ReferenceIdeal.main_arg0).trans (Cert.ReferenceIdeal.Fold.arg_kept _ _ (by decide))
  · exact (h c Cert.ReferenceIdeal.main_arg1).trans (Cert.ReferenceIdeal.Fold.arg_kept _ _ (by decide))
  · exact (h c Cert.ReferenceIdeal.main_arg2).trans (Cert.ReferenceIdeal.Fold.arg_kept _ _ (by decide))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
